-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S200000x3 : Shape := ⟨2, ![200000, 3]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel

variable [Facts]

def fn {F : FTy → Type} [FloatOps F] (main_arg0 : FVec F S64x100000x3 .f32) (main_arg1 : IVec S200000x3 32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  main_v3
-- ==== Kernel.lean ====
abbrev S64x100000x3 : Shape := ⟨3, ![64, 100000, 3]⟩
abbrev S200000x3 : Shape := ⟨2, ![200000, 3]⟩
abbrev S200000x1 : Shape := ⟨2, ![200000, 1]⟩
abbrev S200000 : Shape := ⟨1, ![200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S64x1200000x3 : Shape := ⟨3, ![64, 1200000, 3]⟩
abbrev S64x100352x3 : Shape := ⟨3, ![64, 100352, 3]⟩
abbrev S100352 : Shape := ⟨1, ![100352]⟩
abbrev S64x3x100352 : Shape := ⟨3, ![64, 3, 100352]⟩
abbrev S1x1x100352 : Shape := ⟨3, ![1, 1, 100352]⟩
abbrev S1x1 : Shape := ⟨2, ![1, 1]⟩
abbrev S64x3x2048 : Shape := ⟨3, ![64, 3, 2048]⟩
abbrev S1x1x2048 : Shape := ⟨3, ![1, 1, 2048]⟩
abbrev S1x2048 : Shape := ⟨2, ![1, 2048]⟩
abbrev S64x1x2048 : Shape := ⟨3, ![64, 1, 2048]⟩
abbrev S64x2048 : Shape := ⟨2, ![64, 2048]⟩
abbrev S64 : Shape := ⟨1, ![64]⟩
abbrev S64x1 : Shape := ⟨2, ![64, 1]⟩
abbrev S1 : Shape := ⟨1, ![1]⟩

abbrev nBuf : Space → Nat
  | .hbm => 62
  | .vmem => 8
  | .smem => 0
  | _ => 0

abbrev bufTy : (tb : Table) → Fin (tcTables nBuf tb) → BufTy
  | .hbm, ⟨0, _⟩ => ⟨S64x100000x3, .f32⟩
  | .hbm, ⟨1, _⟩ => ⟨S200000x3, .i32⟩
  | .hbm, ⟨2, _⟩ => ⟨S200000x1, .i32⟩
  | .hbm, ⟨3, _⟩ => ⟨S200000, .i32⟩
  | .hbm, ⟨4, _⟩ => ⟨S200000x1, .i32⟩
  | .hbm, ⟨5, _⟩ => ⟨S200000, .i32⟩
  | .hbm, ⟨6, _⟩ => ⟨S200000x1, .i32⟩
  | .hbm, ⟨7, _⟩ => ⟨S200000, .i32⟩
  | .hbm, ⟨8, _⟩ => ⟨S1200000, .i32⟩
  | .hbm, ⟨9, _⟩ => ⟨S1200000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S_, .f32⟩
  | .hbm, ⟨21, _⟩ => ⟨S1200000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S64x100000x3, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S64x1200000x3, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S64x100000x3, .f32⟩
  | .hbm, ⟨46, _⟩ => ⟨S_, .i32⟩
  | .hbm, ⟨47, _⟩ => ⟨S_, .f32⟩
  | .hbm, ⟨48, _⟩ => ⟨S64x100352x3, .f32⟩
  | .hbm, ⟨49, _⟩ => ⟨S_, .i32⟩
  | .hbm, ⟨50, _⟩ => ⟨S_, .f32⟩
  | .hbm, ⟨51, _⟩ => ⟨S64x100352x3, .f32⟩
  | .hbm, ⟨52, _⟩ => ⟨S_, .f32⟩
  | .hbm, ⟨53, _⟩ => ⟨S_, .f32⟩
  | .hbm, ⟨54, _⟩ => ⟨S100352, .f32⟩
  | .hbm, ⟨55, _⟩ => ⟨S64x3x100352, .f32⟩
  | .hbm, ⟨56, _⟩ => ⟨S64x3x100352, .f32⟩
  | .hbm, ⟨57, _⟩ => ⟨S1x1x100352, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S64x3x2048, .f32⟩
  | .local _ .vmem, ⟨1, _⟩ => ⟨S64x3x2048, .f32⟩
  | .local _ .vmem, ⟨2, _⟩ => ⟨S64x3x2048, .f32⟩
  | .local _ .vmem, ⟨3, _⟩ => ⟨S64x3x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1, .f32⟩
  | .local _ .vmem, ⟨7, _⟩ => ⟨S1x1, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_call0_v0 : Ref sig .tc := ⟨.hbm, 47, rfl⟩
abbrev main_v34 : Ref sig .tc := ⟨.hbm, 48, rfl⟩
abbrev main_c_9 : Ref sig .tc := ⟨.hbm, 49, rfl⟩
abbrev main_call1_v0 : Ref sig .tc := ⟨.hbm, 50, rfl⟩
abbrev main_v35 : Ref sig .tc := ⟨.hbm, 51, rfl⟩
abbrev main_cst_10 : Ref sig .tc := ⟨.hbm, 52, rfl⟩
abbrev main_call2_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v46 : BitVec 1 := Scalar.cmpi .eq arg0 c48_i32
  let v47 : BitVec 32 := Scalar.extui v46
  let c0_i32_14 : BitVec 32 := 0#32
  let v48 : BitVec 1 := Scalar.cmpi .ne v47 c0_i32_14
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  concatenates_S200000_S200000_S200000_S200000_S200000_S200000_S1200000_d0 : Shape.Concatenates [S200000, S200000, S200000, S200000, S200000, S200000] S1200000 0
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S64x100000x3 : S_.BroadcastsInDim S64x100000x3 (![] : Fin 0 → Fin S64x100000x3.rank)
  pads_S64x100000x3_S64x100352x3_000_03520_000 : S64x100000x3.Pads (![0, 0, 0] : Fin 3 → Nat) ![0, 352, 0] ![0, 0, 0] S64x100352x3
  h_S_ : 0 < S_.numel
  pads_S100000_S100352_03520 : S100000.Pads (![0] : Fin 1 → Nat) ![352] ![0] S100352
  transposes_S64x100352x3_S64x3x100352_0_2_1 : S64x100352x3.Transposes [0, 2, 1] S64x3x100352
  shapeCasts_S100352_S1x1x100352 : S100352.ShapeCasts S1x1x100352
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x3x2048_S64x3x2048_0_0_0 : ∀ a, (![0, 0, 0] : Fin 3 → Nat) a + S64x3x2048.size a ≤ S64x3x2048.size a
  h_S64x3x2048 : 0 < S64x3x2048.numel
  shapeCasts_S64x3x2048_S64x3x2048 : S64x3x2048.ShapeCasts S64x3x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  slices_S64x3x2048_o0_0_0_S64x1x2048 : S64x3x2048.Slices ![0, 0, 0] S64x1x2048
  shapeCasts_S64x1x2048_S64x2048 : S64x1x2048.ShapeCasts S64x2048
  slices_S64x3x2048_o0_1_0_S64x1x2048 : S64x3x2048.Slices ![0, 1, 0] S64x1x2048
  slices_S64x3x2048_o0_2_0_S64x1x2048 : S64x3x2048.Slices ![0, 2, 0] S64x1x2048
  broadcasts_S1x2048_S64x2048 : S1x2048.Broadcasts S64x2048
  reduces_S64x2048_S64 : S64x2048.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  scatter_S100000_S1200000x1_S1200000_n_0_0_1_wf : ScatterDims.WF S100000 S1200000x1 S1200000 [] [0] [0] 1
  gather_S64x100000x3_S1200000x1_S64x1200000x3_02_1_n_n_1_1_6413_wf : GatherDims.WF S64x100000x3 S1200000x1 S64x1200000x3 [0, 2] [1] [] [1] [] 1 ![64, 1, 3]
  scatter_S64x100000x3_S1200000x1_S64x1200000x3_02_1_1_1_wf : ScatterDims.WF S64x100000x3 S1200000x1 S64x1200000x3 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3x2048.size a ≤ S64x3x100352.size a
  hwx0_0 : ∀ i : grid0.Coords, EltTy.bits .f32 = 32 ∨ (Rect.block (s := S64x3x100352) S64x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x3x2048.size a ≤ S64x3x100352.size a
  hwx0_1 : ∀ i : grid0.Coords, EltTy.bits .f32 = 32 ∨ (Rect.block (s := S64x3x100352) S64x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S1x1x100352.size a
  hwx0_2 : ∀ i : grid0.Coords, EltTy.bits .f32 = 32 ∨ (Rect.block (s := S1x1x100352) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S64x100000x3_S1200000x1_S64x1200000x3_02_1_n_n_1_1_6413 : GatherDims S64x100000x3 S1200000x1 S64x1200000x3 where
  offsetDims := [0, 2]
  collapsedSliceDims := [1]
  operandBatchingDims := []
  startIndicesBatchingDims := []
  startIndexMap := [1]
  indexVectorDim := 1
  sliceSizes := ![64, 1, 3]
  wf := gather_S64x100000x3_S1200000x1_S64x1200000x3_02_1_n_n_1_1_6413_wf
def scatter_S64x100000x3_S1200000x1_S64x1200000x3_02_1_1_1 : ScatterDims S64x100000x3 S1200000x1 S64x1200000x3 where
  updateWindowDims := [0, 2]
  insertedWindowDims := [1]
  scatterDimsToOperandDims := [1]
  indexVectorDim := 1
  wf := scatter_S64x100000x3_S1200000x1_S64x1200000x3_02_1_1_1_wf

abbrev win0_0 : Pipeline.Window sig grid0 :=
  Pipeline.Window.ofSpec (Memref.whole main_v37) S64x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S64x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x100000x3 : Shape := ⟨3, ![64, 100000, 3]⟩
abbrev S200000x3 : Shape := ⟨2, ![200000, 3]⟩
abbrev S200000x1 : Shape := ⟨2, ![200000, 1]⟩
abbrev S200000 : Shape := ⟨1, ![200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S64x1200000x3 : Shape := ⟨3, ![64, 1200000, 3]⟩
abbrev S1x100000x1 : Shape := ⟨3, ![1, 100000, 1]⟩
abbrev S64x100000 : Shape := ⟨2, ![64, 100000]⟩

abbrev nBuf : Space → Nat
  | .hbm => 58
  | .vmem => 0
  | .smem => 0
  | _ => 0

abbrev bufTy : (tb : Table) → Fin (tcTables nBuf tb) → BufTy
  | .hbm, ⟨0, _⟩ => ⟨S64x100000x3, .f32⟩
  | .hbm, ⟨1, _⟩ => ⟨S200000x3, .i32⟩
  | .hbm, ⟨2, _⟩ => ⟨S200000x1, .i32⟩
  | .hbm, ⟨3, _⟩ => ⟨S200000, .i32⟩
  | .hbm, ⟨4, _⟩ => ⟨S200000x1, .i32⟩
  | .hbm, ⟨5, _⟩ => ⟨S200000, .i32⟩
  | .hbm, ⟨6, _⟩ => ⟨S200000x1, .i32⟩
  | .hbm, ⟨7, _⟩ => ⟨S200000, .i32⟩
  | .hbm, ⟨8, _⟩ => ⟨S1200000, .i32⟩
  | .hbm, ⟨9, _⟩ => ⟨S1200000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S_, .f32⟩
  | .hbm, ⟨21, _⟩ => ⟨S1200000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S64x100000x3, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S64x1200000x3, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S64x100000x3, .f32⟩
  | .hbm, ⟨46, _⟩ => ⟨S1x100000x1, .f32⟩
  | .hbm, ⟨47, _⟩ => ⟨S64x100000x3, .f32⟩
  | .hbm, ⟨48, _⟩ => ⟨S64x100000x3, .f32⟩
  | .hbm, ⟨49, _⟩ => ⟨S64x100000x3, .f32⟩
  | .hbm, ⟨50, _⟩ => ⟨S64x100000x3, .f32⟩
  | .hbm, ⟨51, _⟩ => ⟨S_, .f32⟩
  | .hbm, ⟨52, _⟩ => ⟨S64x100000, .f32⟩
  | .hbm, ⟨53, _⟩ => ⟨S64x100000, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  concatenates_S200000_S200000_S200000_S200000_S200000_S200000_S1200000_d0 : Shape.Concatenates [S200000, S200000, S200000, S200000, S200000, S200000] S1200000 0
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S64x100000x3 : S_.BroadcastsInDim S64x100000x3 (![] : Fin 0 → Fin S64x100000x3.rank)
  bcast_S100000_S1x100000x1_1 : S100000.BroadcastsInDim S1x100000x1 (![1] : Fin 1 → Fin S1x100000x1.rank)
  bcast_S1x100000x1_S64x100000x3_0_1_2 : S1x100000x1.BroadcastsInDim S64x100000x3 (![0, 1, 2] : Fin 3 → Fin S64x100000x3.rank)
  reducesTo_S64x100000x3_S64x100000_d2 : S64x100000x3.ReducesTo [2] S64x100000
  h_S_ : 0 < S_.numel
  reducesTo_S64x100000_S_d0_1 : S64x100000.ReducesTo [0, 1] S_
  scatter_S100000_S1200000x1_S1200000_n_0_0_1_wf : ScatterDims.WF S100000 S1200000x1 S1200000 [] [0] [0] 1
  gather_S64x100000x3_S1200000x1_S64x1200000x3_02_1_n_n_1_1_6413_wf : GatherDims.WF S64x100000x3 S1200000x1 S64x1200000x3 [0, 2] [1] [] [1] [] 1 ![64, 1, 3]
  scatter_S64x100000x3_S1200000x1_S64x1200000x3_02_1_1_1_wf : ScatterDims.WF S64x100000x3 S1200000x1 S64x1200000x3 [0, 2] [1] [1] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S64x100000x3_S1200000x1_S64x1200000x3_02_1_n_n_1_1_6413 : GatherDims S64x100000x3 S1200000x1 S64x1200000x3 where
  offsetDims := [0, 2]
  collapsedSliceDims := [1]
  operandBatchingDims := []
  startIndicesBatchingDims := []
  startIndexMap := [1]
  indexVectorDim := 1
  sliceSizes := ![64, 1, 3]
  wf := gather_S64x100000x3_S1200000x1_S64x1200000x3_02_1_n_n_1_1_6413_wf
def scatter_S64x100000x3_S1200000x1_S64x1200000x3_02_1_1_1 : ScatterDims S64x100000x3 S1200000x1 S64x1200000x3 where
  updateWindowDims := [0, 2]
  insertedWindowDims := [1]
  scatterDimsToOperandDims := [1]
  indexVectorDim := 1
  wf := scatter_S64x100000x3_S1200000x1_S64x1200000x3_02_1_1_1_wf

class Facts : Prop extends Facts₀ where

variable [Facts]
-- ==== Proof.Kernel.Around.lean ====
/-
  The program around its one kernel region.

  Before the region the host makes, from the faces, the two lists of directed edges, from those the number of
  neighbours of each vertex (at least one) and the sum of the neighbours' positions, pads the positions, the sums
  and the counts along the vertex axis up to 49 tiles of 2048 vertices, and lays the first two out with the vertex
  axis last. After the region it divides the one number the region leaves by the number of (batch, vertex) pairs.

  This module says: what every buffer holds when the region is entered (`entry`); that the program is those host
  lines, then the region, then the closing host lines; and that no host line, before or after, writes either
  argument or (after) any array the region's windows move.
-/
import proofs.«138574_j73796128080164_1_alg».proof.Proof.Gen.Kernel.Launch
import proofs.«138574_j73796128080164_1_alg».proof.Proof.Gen.Kernel.Skeleton
import proofs.«138574_j73796128080164_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines on either side of the region -/

/-- The host lines before the region, in the stretches the program is cut into: the edge lists, the neighbour counts and
    sums; then the three paddings, each a short stretch of its own; then the two transposes and the reshape. -/
abbrev lead : List (List (HloOp τ sig (Elt F))) :=
  [hostOps0, hostOps0_1, hostOps0_2, hostOps0_3, hostOps0_4, hostOps0_5, hostOps0_6]

/-- The host lines after the region: the reshape of the region's one number to a scalar, the constant, the division. -/
abbrev close : List (List (HloOp τ sig (Elt F))) := [hostOps1]

/-- What every buffer of core `c` holds when the region is entered. -/
abbrev entry0 (c : Dev nD) : Valuation τ sig (Elt F) := StableHlo.after (List.flatten lead) (fun b => m (c, b))
/-- The same, read at a reference. -/
abbrev entry (c : Dev nD) (b : Ref sig .tc) : Buf (Elt F) ((c : Thread nD τ).loc b) := entry0 m c (Proc.devRef .tc b)

theorem lead_refs : (lead (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

/-- No host line allocates a buffer. -/
theorem lead_allocates_nothing : (lead (F := F)).Forall fun ops => ops.Forall fun op => op.fresh = ∅ := by
  simp only [List.Forall]; repeat' constructor

theorem close_allocates_nothing : (hostOps1 : List (HloOp τ sig (Elt F))).Forall fun op => op.fresh = ∅ := by
  simp only [List.Forall]; repeat' constructor

/-- The program is its leading host lines, the region, its closing host lines: run from launch it comes to the region
    with the buffers at `entry`, and goes on after it with the closing lines. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main lead close lead_refs lead_allocates_nothing main_chain

/-! ## The closing lines and the region's arrays -/

theorem close_refs : ∀ ops ∈ (close : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem close_fresh : ∀ ops ∈ (close : List (List (HloOp τ sig (Elt F)))), ∀ op ∈ ops, op.fresh = ∅ := by
  intro ops hops op hop
  obtain rfl : ops = hostOps1 := by simpa using hops
  exact (List.forall_iff_forall_mem.mp close_allocates_nothing) op hop

/-- The closing lines write the scalar, the constant and the quotient: none of the four arrays the windows move. -/
theorem close_keeps : ∀ ops ∈ (close : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl
  all_goals
    intro w
    fin_cases w <;>
      simp only [StableHlo.nullary_writes, StableHlo.binary_writes, StableHlo.reshape_writes, Finset.mem_singleton] <;>
      exact StableHlo.devRef_ne_of_ne (by decide)

/-! ## The arguments are never written -/

/-- A reference none of the leading lines writes holds at the region's entry what it held at launch. Every leading line
    writes one buffer, its own result. -/
theorem entry_of_unwritten (c : Dev nD) (b : Ref sig .tc)
    (h : (List.flatten (lead (F := F))).Forall fun op => Proc.devRef .tc b ∉ op.writes) :
    entry m c b = m ((c : Thread nD τ).loc b) :=
  StableHlo.after_of_forall_not_mem (b := Proc.devRef .tc b) _ _ (List.forall_iff_forall_mem.mp h)

theorem entry_positions (c : Dev nD) : entry m c main_arg0 = m ((c : Thread nD τ).loc main_arg0) :=
  entry_of_unwritten m c main_arg0 (by
    simp only [hostOps0, hostOps0_1, hostOps0_2, hostOps0_3, hostOps0_4, hostOps0_5, hostOps0_6, List.flatten_cons,
      List.flatten_nil, List.append_nil, List.cons_append, List.nil_append, List.Forall, StableHlo.TRef.unary,
      StableHlo.TRef.binary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

theorem entry_faces (c : Dev nD) : entry m c main_arg1 = m ((c : Thread nD τ).loc main_arg1) :=
  entry_of_unwritten m c main_arg1 (by
    simp only [hostOps0, hostOps0_1, hostOps0_2, hostOps0_3, hostOps0_4, hostOps0_5, hostOps0_6, List.flatten_cons,
      List.flatten_nil, List.append_nil, List.cons_append, List.nil_append, List.Forall, StableHlo.TRef.unary,
      StableHlo.TRef.binary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-- A reference that is no array of the windows and that the closing lines do not write ends where the region found it. -/
theorem exit_of_unwritten (dats : (p : Fin 1) → (c : Dev nD) → Dat τ (Elt F) Unit ℕ (UR sig nD τ) ℕ (cfgs p) c)
    (c : Dev nD) (b : Ref sig .tc) (hw : ∀ w, Pipeline.arrRef spec0 w ≠ b)
    (h : (hostOps1 : List (HloOp τ sig (Elt F))).Forall fun op => Proc.devRef .tc b ∉ op.writes) :
    Pipeline.afterTail₀ cfgs dats 0 (entry0 m) close c b = entry m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (entry0 m c) _ b hw]

theorem close_keeps_positions : (hostOps1 : List (HloOp τ sig (Elt F))).Forall fun op => Proc.devRef .tc main_arg0 ∉ op.writes := by
  simp only [hostOps1, List.Forall, StableHlo.nullary_writes, StableHlo.binary_writes, StableHlo.reshape_writes, Finset.mem_singleton]
  repeat' apply And.intro
  all_goals exact StableHlo.devRef_ne_of_ne (by decide)

theorem close_keeps_faces : (hostOps1 : List (HloOp τ sig (Elt F))).Forall fun op => Proc.devRef .tc main_arg1 ∉ op.writes := by
  simp only [hostOps1, List.Forall, StableHlo.nullary_writes, StableHlo.binary_writes, StableHlo.reshape_writes, Finset.mem_singleton]
  repeat' apply And.intro
  all_goals exact StableHlo.devRef_ne_of_ne (by decide)

/-- From a run to the library's post of the region's frame — each window's array at what the write-backs leave, every other
    buffer at what the closing lines leave — the two arguments end as launched. -/
theorem arguments_kept (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (entry0 m) close) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 (Pipeline.mem_restRefs_of main_arg0 (by decide) (by decide))).trans
      ((exit_of_unwritten m dats c main_arg0 (by decide) close_keeps_positions).trans (entry_positions m c)),
   ((h c).2 main_arg1 (Pipeline.mem_restRefs_of main_arg1 (by decide) (by decide))).trans
      ((exit_of_unwritten m dats c main_arg1 (by decide) close_keeps_faces).trans (entry_faces m c))⟩

end Cert.Kernel.Region

end
-- ==== Proof.Kernel.Cases.lean ====
/-
  The kernel body at one grid point, in each of the three situations the grid meets.

  The body keeps a running total in a one-element scratch buffer. At the FIRST point it first sets the total to zero;
  at every point it adds the point's partial sum (a function of the three input blocks) to the total; at the LAST
  point it also copies the total into the one-element output block. So a point is first (0), last (48) or neither, and
  in each situation the body is a straight line of whole-buffer loads and stores. Each run below says: given the three
  input buffers at their contents, the body ends with them unchanged, the scratch rewritten by the stores the run lists,
  and the output buffer either untouched (not the last point) or rewritten by the one store listed (the last point).
-/
import proofs.«138574_j73796128080164_1_alg».proof.Proof.Kernel.Around

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- "This is the first point": the body's own test, the grid coordinate compared with 0. -/
abbrev atFirst (i : grid0.Coords) : Prop :=
  (Scalar.cmpi .ne (Scalar.extui (Scalar.cmpi .eq (BitVec.ofNat 32 (i 0).val) 0#32)) 0#32) = 1#1
/-- "This is the last point": the coordinate compared with 48. -/
abbrev atLast (i : grid0.Coords) : Prop := k0_cond2 i = 1#1

/-- Over the 49 points the first test holds at point 0 only, -/
theorem atFirst_iff : ∀ t : Fin cfg0.N, atFirst (grid0.coords t) ↔ t.val = 0 :=
  (by decide +kernel : ∀ t : Fin grid0.N, atFirst (grid0.coords t) ↔ t.val = 0)
/-- and the last at point 48 only. -/
theorem atLast_iff : ∀ t : Fin cfg0.N, atLast (grid0.coords t) ↔ t.val = 48 :=
  (by decide +kernel : ∀ t : Fin grid0.N, atLast (grid0.coords t) ↔ t.val = 48)

/-! ## The three runs -/

set_option maxHeartbeats 1000000 in
/-- A point that is neither first nor last: the scratch comes in at `acc`, the output buffer is not touched. -/
noncomputable def runMiddle (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : ¬atFirst i) (hL : ¬atLast i)
    (x v : Vec F S64x3x2048 .f32) (d : Vec F S1x1x2048 .f32) (acc : Vec F S1x1 .f32) :
    { LS : List (View.Piece (Elt F) S1x1 .f32) //
      ∀ (out : Vec F S1x1 .f32) (E : Set ℕ) (K : PUnit → sProp 𝕄),
        iprop(owns (c : Thread nD τ) a1 fullShare x ∗ owns (c : Thread nD τ) a2 fullShare v ∗ owns (c : Thread nD τ) a3 fullShare d
            ∗ owns (c : Thread nD τ) a4 fullShare out ∗ owns (c : Thread nD τ) a5 fullShare acc
            ∗ (iprop(owns (c : Thread nD τ) a1 fullShare x ∗ owns (c : Thread nD τ) a2 fullShare v ∗ owns (c : Thread nD τ) a3 fullShare d
                ∗ owns (c : Thread nD τ) a4 fullShare out
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, fun out E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3
    obtain rfl := h4.eq_unread hf4; obtain rfl := h5.eq_unread hf5
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

set_option maxHeartbeats 1000000 in
/-- The first point: whatever the scratch holds, it is set to zero before the point's partial sum is added; the output
    buffer is not touched. -/
noncomputable def runFirst (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : atFirst i) (hL : ¬atLast i)
    (x v : Vec F S64x3x2048 .f32) (d : Vec F S1x1x2048 .f32) :
    { LS : List (View.Piece (Elt F) S1x1 .f32) //
      ∀ (out : Vec F S1x1 .f32) (E : Set ℕ) (K : PUnit → sProp 𝕄),
        iprop(owns (c : Thread nD τ) a1 fullShare x ∗ owns (c : Thread nD τ) a2 fullShare v ∗ owns (c : Thread nD τ) a3 fullShare d
            ∗ owns (c : Thread nD τ) a4 fullShare out ∗ (∃ e, owns (c : Thread nD τ) a5 fullShare e)
            ∗ (iprop(owns (c : Thread nD τ) a1 fullShare x ∗ owns (c : Thread nD τ) a2 fullShare v ∗ owns (c : Thread nD τ) a3 fullShare d
                ∗ owns (c : Thread nD τ) a4 fullShare out
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, fun out E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%f4, %hf4, H4⟩, ⟨%e5, %f5, -, H5⟩, Hk⟩
    obtain rfl := h1.eq_unread hf1; obtain rfl := h2.eq_unread hf2; obtain rfl := h3.eq_unread hf3
    obtain rfl := h4.eq_unread hf4
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

set_option maxHeartbeats 1000000 in
/-- The last point: the scratch comes in at `acc`, the point's partial sum is added, and the total is copied into the
    output buffer, whatever that held. -/
noncomputable def runLast (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : ¬atFirst i) (hL : atLast i)
    (x v : Vec F S64x3x2048 .f32) (d : Vec F S1x1x2048 .f32) (acc : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x ∗ owns (c : Thread nD τ) a2 fullShare v ∗ owns (c : Thread nD τ) a3 fullShare d
            ∗ (∃ e, owns (c : Thread nD τ) a4 fullShare e) ∗ owns (c : Thread nD τ) a5 fullShare acc
            ∗ (iprop(owns (c : Thread nD τ) a1 fullShare x ∗ owns (c : Thread nD τ) a2 fullShare v ∗ owns (c : Thread nD τ) a3 fullShare d
                ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, ?_, fun E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%e4, %f4, -, H4⟩, ⟨%f5, %hf5, H5⟩, Hk⟩
    obtain rfl := h1.eq_unread hf1; obtain rfl := h2.eq_unread hf2; obtain rfl := h3.eq_unread hf3
    obtain rfl := h5.eq_unread hf5
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.Kernel.Region

end
-- ==== Proof.Kernel.Run.lean ====
/-
  The region run point by point.

  The scratch buffer holds the running total. `totals n` is what it holds after point `n`: after point 0 what the
  first-point run leaves (zero plus the point's partial sum), after a later point what that point's run leaves over
  the previous total. The region's invariant between points is the scratch at that total. The three input windows are
  fetched at every point, so each staging buffer holds its array's block there; the output window's one-element block
  is stored at the last point only, with the final total, and written back there. With these as the proof data the
  library's launch theorem gives the run of the whole program, and from it the frame: the arguments end unchanged.
-/
import proofs.«138574_j73796128080164_1_alg».proof.Proof.Kernel.Cases
import Idealize.ShloMosaic.Lib.Ring

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- The staging buffer each window is on at point `t`, and that it is a whole buffer. -/
abbrev st1 (t : Fin cfg0.N) : Memref sig .tc .vmem S64x3x2048 .f32 := win0_0.stage (cfg0.slots t 0)
abbrev hst1 (t : Fin cfg0.N) : (st1 t).IsWhole := hstage0_0 ((cfg0.slots t 0).cast nbuf0_0)
abbrev st2 (t : Fin cfg0.N) : Memref sig .tc .vmem S64x3x2048 .f32 := win0_1.stage (cfg0.slots t 1)
abbrev hst2 (t : Fin cfg0.N) : (st2 t).IsWhole := hstage0_1 ((cfg0.slots t 1).cast nbuf0_1)
abbrev st3 (t : Fin cfg0.N) : Memref sig .tc .vmem S1x1x2048 .f32 := win0_2.stage (cfg0.slots t 2)
abbrev hst3 (t : Fin cfg0.N) : (st3 t).IsWhole := hstage0_2 ((cfg0.slots t 2).cast nbuf0_2)
abbrev st4 (t : Fin cfg0.N) : Memref sig .tc .vmem S1x1 .f32 := win0_3.stage (cfg0.slots t 3)
abbrev hst4 (t : Fin cfg0.N) : (st4 t).IsWhole := hstage0_3 ((cfg0.slots t 3).cast nbuf0_3)
/-- The scratch: one element, the kernel's own. -/
abbrev scr : Memref sig .tc .vmem S1x1 .f32 := Memref.whole cc0_scratch0
abbrev scrV : View sig .tc .vmem S1x1 .f32 := scr.view
/-- The output window's one staging buffer, as a view. -/
abbrev outV : View sig .tc .vmem S1x1 .f32 := (Memref.whole cc0_stg3_0 : Memref sig .tc .vmem S1x1 .f32).view

/-- What a one-element buffer holds once the listed stores have been made, read back (over contents that do not matter when
    the stores cover the buffer). -/
def readBack (V : View sig .tc .vmem S1x1 .f32) (L : List (View.Piece (Elt F) S1x1 .f32)) : Vec F S1x1 .f32 :=
  V.read (Elt F) (V.writes (Elt F) V.junk L)

/-- The region's invariant with the scratch spelt out: the scratch at some contents, and the generator register. -/
theorem invA_eq (c : Dev nD) :
    (Pipeline.ΦA spec0 c : sProp 𝕄) = iprop(iprop((∃ e, owns (c : Thread nD τ) scr fullShare e)) ∗ (∃ r, prngReg c r)) := by
  unfold Pipeline.ΦA; rw [scopedRest0_eq]; simp only [scr, owns_whole]; try rfl

/-! ## The blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## Each run's stores cover the buffer they write -/

theorem first_covers (c : Dev nD) (t : Fin cfg0.N) (hF : atFirst (grid0.coords t)) (hL : ¬atLast (grid0.coords t))
    (x v : Vec F S64x3x2048 .f32) (d : Vec F S1x1x2048 .f32) (y : S1x1.Idx) :
    ∃ pc ∈ (runFirst c (grid0.coords t) (st1 t) (hst1 t) (st2 t) (hst2 t) (st3 t) (hst3 t) (st4 t) (hst4 t) scr (Memref.isWhole_whole _) hF hL x v d).1, y ∈ pc.1.set :=
  View.cover_of_tiledL (runFirst c (grid0.coords t) (st1 t) (hst1 t) (st2 t) (hst2 t) (st3 t) (hst3 t) (st4 t) (hst4 t) scr (Memref.isWhole_whole _) hF hL x v d).1 S1x1.size (by sl_kernel_rfl) y

theorem middle_covers (c : Dev nD) (t : Fin cfg0.N) (hF : ¬atFirst (grid0.coords t)) (hL : ¬atLast (grid0.coords t))
    (x v : Vec F S64x3x2048 .f32) (d : Vec F S1x1x2048 .f32) (acc : Vec F S1x1 .f32) (y : S1x1.Idx) :
    ∃ pc ∈ (runMiddle c (grid0.coords t) (st1 t) (hst1 t) (st2 t) (hst2 t) (st3 t) (hst3 t) (st4 t) (hst4 t) scr (Memref.isWhole_whole _) hF hL x v d acc).1, y ∈ pc.1.set :=
  View.cover_of_tiledL (runMiddle c (grid0.coords t) (st1 t) (hst1 t) (st2 t) (hst2 t) (st3 t) (hst3 t) (st4 t) (hst4 t) scr (Memref.isWhole_whole _) hF hL x v d acc).1 S1x1.size (by sl_kernel_rfl) y

theorem last_covers_scratch (c : Dev nD) (t : Fin cfg0.N) (hF : ¬atFirst (grid0.coords t)) (hL : atLast (grid0.coords t))
    (x v : Vec F S64x3x2048 .f32) (d : Vec F S1x1x2048 .f32) (acc : Vec F S1x1 .f32) (y : S1x1.Idx) :
    ∃ pc ∈ (runLast c (grid0.coords t) (st1 t) (hst1 t) (st2 t) (hst2 t) (st3 t) (hst3 t) (st4 t) (hst4 t) scr (Memref.isWhole_whole _) hF hL x v d acc).2.1, y ∈ pc.1.set :=
  View.cover_of_tiledL (runLast c (grid0.coords t) (st1 t) (hst1 t) (st2 t) (hst2 t) (st3 t) (hst3 t) (st4 t) (hst4 t) scr (Memref.isWhole_whole _) hF hL x v d acc).2.1 S1x1.size (by sl_kernel_rfl) y

theorem last_covers_out (c : Dev nD) (t : Fin cfg0.N) (hF : ¬atFirst (grid0.coords t)) (hL : atLast (grid0.coords t))
    (x v : Vec F S64x3x2048 .f32) (d : Vec F S1x1x2048 .f32) (acc : Vec F S1x1 .f32) (y : S1x1.Idx) :
    ∃ pc ∈ (runLast c (grid0.coords t) (st1 t) (hst1 t) (st2 t) (hst2 t) (st3 t) (hst3 t) (st4 t) (hst4 t) scr (Memref.isWhole_whole _) hF hL x v d acc).1, y ∈ pc.1.set :=
  View.cover_of_tiledL (runLast c (grid0.coords t) (st1 t) (hst1 t) (st2 t) (hst2 t) (st3 t) (hst3 t) (st4 t) (hst4 t) scr (Memref.isWhole_whole _) hF hL x v d acc).1 S1x1.size (by sl_kernel_rfl) y

/-! ## The running total -/

theorem first_at_zero {n : ℕ} (hn : n < cfg0.N) (h : n = 0) : atFirst (grid0.coords ⟨n, hn⟩) := (atFirst_iff ⟨n, hn⟩).mpr h
theorem not_first {n : ℕ} (hn : n < cfg0.N) (h : n ≠ 0) : ¬atFirst (grid0.coords ⟨n, hn⟩) := fun hf => h ((atFirst_iff ⟨n, hn⟩).mp hf)
theorem last_at {n : ℕ} (hn : n < cfg0.N) (h : n = 48) : atLast (grid0.coords ⟨n, hn⟩) := (atLast_iff ⟨n, hn⟩).mpr h
theorem not_last {n : ℕ} (hn : n < cfg0.N) (h : n ≠ 48) : ¬atLast (grid0.coords ⟨n, hn⟩) := fun hl => h ((atLast_iff ⟨n, hn⟩).mp hl)

/-- THE RUNNING TOTAL: what the scratch holds after the body at point `n`. -/
def totals (c : Dev nD) : (n : ℕ) → n < cfg0.N → Vec F S1x1 .f32
  | 0, hn => readBack scrV (runFirst c (grid0.coords ⟨0, hn⟩) (st1 ⟨0, hn⟩) (hst1 ⟨0, hn⟩) (st2 ⟨0, hn⟩) (hst2 ⟨0, hn⟩) (st3 ⟨0, hn⟩) (hst3 ⟨0, hn⟩) (st4 ⟨0, hn⟩) (hst4 ⟨0, hn⟩) scr (Memref.isWhole_whole _) (first_at_zero hn rfl) (not_last hn (by decide)) (blk m c 0 ⟨0, hn⟩) (blk m c 1 ⟨0, hn⟩) (blk m c 2 ⟨0, hn⟩)).1
  | n + 1, hn =>
    if h : n + 1 = 48 then
      readBack scrV (runLast c (grid0.coords ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩) (st4 ⟨n + 1, hn⟩) (hst4 ⟨n + 1, hn⟩) scr (Memref.isWhole_whole _) (not_first hn (Nat.succ_ne_zero n)) (last_at hn h) (blk m c 0 ⟨n + 1, hn⟩) (blk m c 1 ⟨n + 1, hn⟩) (blk m c 2 ⟨n + 1, hn⟩) (totals c n (Nat.lt_of_succ_lt hn))).2.1
    else
      readBack scrV (runMiddle c (grid0.coords ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩) (st4 ⟨n + 1, hn⟩) (hst4 ⟨n + 1, hn⟩) scr (Memref.isWhole_whole _) (not_first hn (Nat.succ_ne_zero n)) (not_last hn h) (blk m c 0 ⟨n + 1, hn⟩) (blk m c 1 ⟨n + 1, hn⟩) (blk m c 2 ⟨n + 1, hn⟩) (totals c n (Nat.lt_of_succ_lt hn))).1

theorem pred_lt (t : Fin cfg0.N) : t.val - 1 < cfg0.N := Nat.lt_of_le_of_lt (Nat.sub_le _ _) t.isLt

theorem totals_first (c : Dev nD) (t : Fin cfg0.N) (h0 : t.val = 0) (hL : t.val ≠ 48) :
    totals m c t.val t.isLt = readBack scrV (runFirst c (grid0.coords t) (st1 t) (hst1 t) (st2 t) (hst2 t) (st3 t) (hst3 t) (st4 t) (hst4 t) scr (Memref.isWhole_whole _) (first_at_zero t.isLt h0) (not_last t.isLt hL) (blk m c 0 t) (blk m c 1 t) (blk m c 2 t)).1 := by
  obtain ⟨n, hn⟩ := t
  cases n with
  | zero => rfl
  | succ n => exact absurd h0 (Nat.succ_ne_zero n)

theorem totals_middle (c : Dev nD) (t : Fin cfg0.N) (h0 : t.val ≠ 0) (hL : t.val ≠ 48) :
    totals m c t.val t.isLt = readBack scrV (runMiddle c (grid0.coords t) (st1 t) (hst1 t) (st2 t) (hst2 t) (st3 t) (hst3 t) (st4 t) (hst4 t) scr (Memref.isWhole_whole _) (not_first t.isLt h0) (not_last t.isLt hL) (blk m c 0 t) (blk m c 1 t) (blk m c 2 t) (totals m c (t.val - 1) (pred_lt t))).1 := by
  obtain ⟨n, hn⟩ := t
  cases n with
  | zero => exact absurd rfl h0
  | succ n => exact (dif_neg hL).trans rfl

theorem totals_last (c : Dev nD) (t : Fin cfg0.N) (h0 : t.val ≠ 0) (hL : t.val = 48) :
    totals m c t.val t.isLt = readBack scrV (runLast c (grid0.coords t) (st1 t) (hst1 t) (st2 t) (hst2 t) (st3 t) (hst3 t) (st4 t) (hst4 t) scr (Memref.isWhole_whole _) (not_first t.isLt h0) (last_at t.isLt hL) (blk m c 0 t) (blk m c 1 t) (blk m c 2 t) (totals m c (t.val - 1) (pred_lt t))).2.1 := by
  obtain ⟨n, hn⟩ := t
  cases n with
  | zero => exact absurd rfl h0
  | succ n => exact (dif_pos hL).trans rfl

/-- The last point. -/
abbrev tLast : Fin cfg0.N := ⟨48, by decide⟩

/-- What the last point stores into the output block: the stores of its run read back. -/
def lastOut (c : Dev nD) : Vec F S1x1 .f32 :=
  readBack outV (runLast c (grid0.coords tLast) (st1 tLast) (hst1 tLast) (st2 tLast) (hst2 tLast) (st3 tLast) (hst3 tLast) (st4 tLast) (hst4 tLast) scr (Memref.isWhole_whole _) (not_first tLast.isLt (by decide)) (last_at tLast.isLt rfl) (blk m c 0 tLast) (blk m c 1 tLast) (blk m c 2 tLast) (totals m c (tLast.val - 1) (pred_lt tLast))).1

/-! ## The invariant between points -/

/-- Before the first point the scratch holds anything; before a later one, the total so far. -/
def inv (c : Dev nD) : (n : ℕ) → n ≤ cfg0.N → sProp 𝕄
  | 0, _ => Pipeline.ΦA spec0 c
  | n + 1, hn => iprop(iprop(owns (c : Thread nD τ) scr fullShare (totals m c n hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare (totals m c n hn)) ∗ (∃ r, prngReg c r)) := rfl

theorem inv_pos (c : Dev nD) (n : ℕ) (h : n ≤ cfg0.N) (hz : n ≠ 0) :
    inv m c n h = iprop(iprop(owns (c : Thread nD τ) scr fullShare (totals m c (n - 1) (by omega))) ∗ (∃ r, prngReg c r)) := by
  cases n with
  | zero => exact absurd rfl hz
  | succ n => rfl

/-! ## The proof data -/

/-- The region's proof data on core `c`: the arrays as the region finds them; after the body each input's buffer at its
    block, the output's at the last point's store (consulted at the last point only: elsewhere the window is idle and
    not written back); between points the scratch at the running total; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => lastOut m c
  Φ t := inv m c t.val (Nat.le_of_lt_succ t.isLt)
  q _ := fullShare
  owed _ := 0

theorem arrays_eq (c : Dev nD) (w : Fin cfg0.W) : (dats m 0 c).A w = entry m c (Pipeline.arrRef spec0 w) := by
  dsimp only [dats]

theorem inv_at (c : Dev nD) (t : Fin cfg0.N) : (dats m 0 c).Φ t.castSucc = inv m c t.val (Nat.le_of_lt t.isLt) := by
  dsimp only [dats]; simp only [Fin.coe_castSucc]

theorem after_in0 (c : Dev nD) (t : Fin cfg0.N) : (dats m 0 c).after 0 t = blk m c 0 t := by dsimp only [dats]
theorem after_in1 (c : Dev nD) (t : Fin cfg0.N) : (dats m 0 c).after 1 t = blk m c 1 t := by dsimp only [dats]
theorem after_in2 (c : Dev nD) (t : Fin cfg0.N) : (dats m 0 c).after 2 t = blk m c 2 t := by dsimp only [dats]
theorem after_out (c : Dev nD) (t : Fin cfg0.N) : (dats m 0 c).after 3 t = lastOut m c := by dsimp only [dats]

/-- An input window is fetched at every point: its buffer holds its array's block there. -/
theorem found_in0 (c : Dev nD) (t : Fin cfg0.N) (d) : (dats m 0 c).before 0 t d = blk m c 0 t :=
  ((dats m 0 c).before_fetched 0 t (fetch0_0 t) d).trans (by unfold Dat.fetched Dat.blockOf blk; rw [arrays_eq]; try rfl)
theorem found_in1 (c : Dev nD) (t : Fin cfg0.N) (d) : (dats m 0 c).before 1 t d = blk m c 1 t :=
  ((dats m 0 c).before_fetched 1 t (fetch0_1 t) d).trans (by unfold Dat.fetched Dat.blockOf blk; rw [arrays_eq]; try rfl)
theorem found_in2 (c : Dev nD) (t : Fin cfg0.N) (d) : (dats m 0 c).before 2 t d = blk m c 2 t :=
  ((dats m 0 c).before_fetched 2 t (fetch0_2 t) d).trans (by unfold Dat.fetched Dat.blockOf blk; rw [arrays_eq]; try rfl)

/-! ## Where the output window is idle -/

theorem out_idle : ∀ t : Fin cfg0.N, t.val ≠ 48 → cfg0.idle 3 (grid0.coords t) = true :=
  (by decide +kernel : ∀ t : Fin grid0.N, t.val ≠ 48 → idle0 3 (grid0.coords t) = true)
theorem out_unflushed : ∀ t : Fin cfg0.N, t.val ≠ 48 → (cfg0.win 3).flush t = false :=
  (by decide +kernel : ∀ t : Fin grid0.N, t.val ≠ 48 → win0_3.flush t = false)
theorem out_live : ∀ t : Fin cfg0.N, t.val = 48 → cfg0.idle 3 (grid0.coords t) = false :=
  (by decide +kernel : ∀ t : Fin grid0.N, t.val = 48 → idle0 3 (grid0.coords t) = false)

theorem leaves_in0 (c : Dev nD) (t : Fin cfg0.N) : (dats m 0 c).leavesExact 0 t = owns (c : Thread nD τ) (st1 t) fullShare (blk m c 0 t) := by
  unfold Dat.leavesExact; rw [show cfg0.idle 0 (grid0.coords t) = false from rfl, after_in0]
theorem leaves_in1 (c : Dev nD) (t : Fin cfg0.N) : (dats m 0 c).leavesExact 1 t = owns (c : Thread nD τ) (st2 t) fullShare (blk m c 1 t) := by
  unfold Dat.leavesExact; rw [show cfg0.idle 1 (grid0.coords t) = false from rfl, after_in1]
theorem leaves_in2 (c : Dev nD) (t : Fin cfg0.N) : (dats m 0 c).leavesExact 2 t = owns (c : Thread nD τ) (st3 t) fullShare (blk m c 2 t) := by
  unfold Dat.leavesExact; rw [show cfg0.idle 2 (grid0.coords t) = false from rfl, after_in2]
theorem leaves_out_last (c : Dev nD) (t : Fin cfg0.N) (h : t.val = 48) :
    (dats m 0 c).leavesExact 3 t = owns (c : Thread nD τ) (st4 t) fullShare (lastOut m c) := by
  unfold Dat.leavesExact; rw [out_live t h, after_out]

/-! ## The body obligation -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st1 t) fullShare ((dats m 0 c).before 0 t d))
    ∗ (∃ d, owns (c : Thread nD τ) (st2 t) fullShare ((dats m 0 c).before 1 t d))
    ∗ (∃ d, owns (c : Thread nD τ) (st3 t) fullShare ((dats m 0 c).before 2 t d))
    ∗ (∃ d, owns (c : Thread nD τ) (st4 t) fullShare ((dats m 0 c).before 3 t d)))

/-- and what it gives back. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: which of the three situations the point is in is read off its number; the inputs' buffers hold
    their blocks; the scratch holds the previous total (anything, at the first point) and is handed back at this point's;
    the output buffer is handed back as found, except at the last point, where it holds the store. -/
theorem body_sound (c : Dev nD) (t : Fin cfg0.N) :
    handed m c t ⊢ wp frame (wpE (defs₀ (F := F)) Variants.none c none) Set.univ (bodyAt0 t) (fun _ => returned m c t) := by
  unfold handed returned bodyAt0
  simp only [found_in0, found_in1, found_in2]
  rw [show (dats m 0 c).owesAt () t.succ = (dats m 0 c).owesAt () t.castSucc from rfl]
  rw [show (dats m 0 c).Φ t.succ = inv m c (t.val + 1) t.isLt from rfl, inv_succ]
  rw [leaves_in0, leaves_in1, leaves_in2, inv_at]
  have hN : t.val < 49 := lt_of_lt_of_eq t.isLt (show cfg0.N = 49 from N_0)
  by_cases h0 : t.val = 0
  · have hL : t.val ≠ 48 := by omega
    rw [Dat.leavesExact_idle (dats m 0 c) 3 t (out_idle t hL) (out_unflushed t hL), totals_first m c t h0 hL,
      inv_zero m c _ _ h0, invA_eq]
    iintro ⟨⟨HS, Hg⟩, Ho, ⟨%d1, H1⟩, ⟨%d2, H2⟩, ⟨%d3, H3⟩, ⟨%d4, H4⟩⟩
    iapply ((runFirst c (grid0.coords t) (st1 t) (hst1 t) (st2 t) (hst2 t) (st3 t) (hst3 t) (st4 t) (hst4 t) scr (Memref.isWhole_whole _) (first_at_zero t.isLt h0) (not_last t.isLt hL) (blk m c 0 t) (blk m c 1 t) (blk m c 2 t)).2 _ Set.univ _)
    isplitl [H1]; · iexact H1
    isplitl [H2]; · iexact H2
    isplitl [H3]; · iexact H3
    isplitl [H4]; · iexact H4
    isplitl [HS]; · iexact HS
    iintro ⟨H1, H2, H3, H4, ⟨%e, HS⟩⟩
    isplitl [HS Hg]
    · isplitl [HS]
      · unfold owns; iexists _; isplitr
        swap; · iexact HS
        ipureintro; exact View.read_writes_of_cover _ _ _ _ _ (first_covers (F := F) c t _ _ _ _ _)
      iexact Hg
    isplitl [Ho]; · iexact Ho
    isplitl [H1]; · iexact H1
    isplitl [H2]; · iexact H2
    isplitl [H3]; · iexact H3
    iexists _; iexact H4
  · by_cases hL : t.val = 48
    · rw [leaves_out_last m c t hL, totals_last m c t h0 hL, inv_pos m c _ _ h0]
      have ht : t = tLast := Fin.ext hL
      subst ht
      iintro ⟨⟨HS, Hg⟩, Ho, ⟨%d1, H1⟩, ⟨%d2, H2⟩, ⟨%d3, H3⟩, ⟨%d4, H4⟩⟩
      iapply ((runLast c (grid0.coords tLast) (st1 tLast) (hst1 tLast) (st2 tLast) (hst2 tLast) (st3 tLast) (hst3 tLast) (st4 tLast) (hst4 tLast) scr (Memref.isWhole_whole _) (not_first tLast.isLt h0) (last_at tLast.isLt hL) (blk m c 0 tLast) (blk m c 1 tLast) (blk m c 2 tLast) _).2.2 Set.univ _)
      isplitl [H1]; · iexact H1
      isplitl [H2]; · iexact H2
      isplitl [H3]; · iexact H3
      isplitl [H4]; · iexists _; iexact H4
      isplitl [HS]; · iexact HS
      iintro ⟨H1, H2, H3, ⟨%e4, H4⟩, ⟨%e, HS⟩⟩
      isplitl [HS Hg]
      · isplitl [HS]
        · unfold owns; iexists _; isplitr
          swap; · iexact HS
          ipureintro; exact View.read_writes_of_cover _ _ _ _ _ (last_covers_scratch (F := F) c tLast _ _ _ _ _ _)
        iexact Hg
      isplitl [Ho]; · iexact Ho
      isplitl [H1]; · iexact H1
      isplitl [H2]; · iexact H2
      isplitl [H3]; · iexact H3
      unfold owns; iexists _; isplitr
      swap; · iexact H4
      ipureintro; unfold lastOut readBack
      exact View.read_writes_of_cover _ _ _ _ _ (last_covers_out (F := F) c tLast _ _ _ _ _ _)
    · rw [Dat.leavesExact_idle (dats m 0 c) 3 t (out_idle t hL) (out_unflushed t hL), totals_middle m c t h0 hL,
        inv_pos m c _ _ h0]
      iintro ⟨⟨HS, Hg⟩, Ho, ⟨%d1, H1⟩, ⟨%d2, H2⟩, ⟨%d3, H3⟩, ⟨%d4, H4⟩⟩
      iapply ((runMiddle c (grid0.coords t) (st1 t) (hst1 t) (st2 t) (hst2 t) (st3 t) (hst3 t) (st4 t) (hst4 t) scr (Memref.isWhole_whole _) (not_first t.isLt h0) (not_last t.isLt hL) (blk m c 0 t) (blk m c 1 t) (blk m c 2 t) _).2 _ Set.univ _)
      isplitl [H1]; · iexact H1
      isplitl [H2]; · iexact H2
      isplitl [H3]; · iexact H3
      isplitl [H4]; · iexact H4
      isplitl [HS]; · iexact HS
      iintro ⟨H1, H2, H3, H4, ⟨%e, HS⟩⟩
      isplitl [HS Hg]
      · isplitl [HS]
        · unfold owns; iexists _; isplitr
          swap; · iexact HS
          ipureintro; exact View.read_writes_of_cover _ _ _ _ _ (middle_covers (F := F) c t _ _ _ _ _ _)
        iexact Hg
      isplitl [Ho]; · iexact Ho
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact body_sound m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch back at whatever it holds. -/
theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 49 := N_0; omega), invA_eq]
  iintro ⟨HS, Hg⟩
  isplitl [HS]
  · iexists _; iexact HS
  iexact Hg

/-! ## The run and the frame -/

set_option backward.isDefEq.respectTransparency.types false in
/-- Every weakly fair execution of the program terminates, faulting nowhere, in a state where each window's array holds what
    the write-backs leave and every other buffer what the closing host lines leave. -/
theorem run_main : θ_run defs (onTc (τ := τ) (main (F := F))) (s₀ m ρ)
    (Pipeline.FramePost cfgs (dats m) 0 (Pipeline.afterTail₀ cfgs (dats m) 0 (entry0 m) close)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := close) (hsub := close_refs) (hfresh := close_fresh) (hkeep := close_keeps)
    (hmain := main_around m Variants.none) (hA := arrays_eq m) (hin := inv_in m) (hout := inv_out m)

/-- THE FRAME: the program runs to the end, faults nowhere, and leaves both arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => arguments_kept m (dats m) r h c) (run_main m ρ)

end Cert.Kernel.Region

end
-- ==== Proof.KernelIdeal.Around.lean ====
/-
  The program around its one kernel region.

  Before the region the host makes, from the faces, the two lists of directed edges, from those the number of
  neighbours of each vertex (at least one) and the sum of the neighbours' positions, pads the positions, the sums
  and the counts along the vertex axis up to 49 tiles of 2048 vertices, and lays the first two out with the vertex
  axis last. After the region it divides the one number the region leaves by the number of (batch, vertex) pairs.

  This module says: what every buffer holds when the region is entered (`entry`); that the program is those host
  lines, then the region, then the closing host lines; and that no host line, before or after, writes either
  argument or (after) any array the region's windows move.
-/
import proofs.«138574_j73796128080164_1_alg».proof.Proof.Gen.KernelIdeal.Launch
import proofs.«138574_j73796128080164_1_alg».proof.Proof.Gen.KernelIdeal.Skeleton
import proofs.«138574_j73796128080164_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines on either side of the region -/

/-- The host lines before the region, in the stretches the program is cut into: the edge lists, the neighbour counts and
    sums; then the three paddings, each a short stretch of its own; then the two transposes and the reshape. -/
abbrev lead : List (List (HloOp τ sig (Elt F))) :=
  [hostOps0, hostOps0_1, hostOps0_2, hostOps0_3, hostOps0_4, hostOps0_5, hostOps0_6]

/-- The host lines after the region: the reshape of the region's one number to a scalar, the constant, the division. -/
abbrev close : List (List (HloOp τ sig (Elt F))) := [hostOps1]

/-- What every buffer of core `c` holds when the region is entered. -/
abbrev entry0 (c : Dev nD) : Valuation τ sig (Elt F) := StableHlo.after (List.flatten lead) (fun b => m (c, b))
/-- The same, read at a reference. -/
abbrev entry (c : Dev nD) (b : Ref sig .tc) : Buf (Elt F) ((c : Thread nD τ).loc b) := entry0 m c (Proc.devRef .tc b)

theorem lead_refs : (lead (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

/-- No host line allocates a buffer. -/
theorem lead_allocates_nothing : (lead (F := F)).Forall fun ops => ops.Forall fun op => op.fresh = ∅ := by
  simp only [List.Forall]; repeat' constructor

theorem close_allocates_nothing : (hostOps1 : List (HloOp τ sig (Elt F))).Forall fun op => op.fresh = ∅ := by
  simp only [List.Forall]; repeat' constructor

/-- The program is its leading host lines, the region, its closing host lines: run from launch it comes to the region
    with the buffers at `entry`, and goes on after it with the closing lines. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main lead close lead_refs lead_allocates_nothing main_chain

/-! ## The closing lines and the region's arrays -/

theorem close_refs : ∀ ops ∈ (close : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem close_fresh : ∀ ops ∈ (close : List (List (HloOp τ sig (Elt F)))), ∀ op ∈ ops, op.fresh = ∅ := by
  intro ops hops op hop
  obtain rfl : ops = hostOps1 := by simpa using hops
  exact (List.forall_iff_forall_mem.mp close_allocates_nothing) op hop

/-- The closing lines write the scalar, the constant and the quotient: none of the four arrays the windows move. -/
theorem close_keeps : ∀ ops ∈ (close : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl
  all_goals
    intro w
    fin_cases w <;>
      simp only [StableHlo.nullary_writes, StableHlo.binary_writes, StableHlo.reshape_writes, Finset.mem_singleton] <;>
      exact StableHlo.devRef_ne_of_ne (by decide)

/-! ## The arguments are never written -/

/-- A reference none of the leading lines writes holds at the region's entry what it held at launch. Every leading line
    writes one buffer, its own result. -/
theorem entry_of_unwritten (c : Dev nD) (b : Ref sig .tc)
    (h : (List.flatten (lead (F := F))).Forall fun op => Proc.devRef .tc b ∉ op.writes) :
    entry m c b = m ((c : Thread nD τ).loc b) :=
  StableHlo.after_of_forall_not_mem (b := Proc.devRef .tc b) _ _ (List.forall_iff_forall_mem.mp h)

theorem entry_positions (c : Dev nD) : entry m c main_arg0 = m ((c : Thread nD τ).loc main_arg0) :=
  entry_of_unwritten m c main_arg0 (by
    simp only [hostOps0, hostOps0_1, hostOps0_2, hostOps0_3, hostOps0_4, hostOps0_5, hostOps0_6, List.flatten_cons,
      List.flatten_nil, List.append_nil, List.cons_append, List.nil_append, List.Forall, StableHlo.TRef.unary,
      StableHlo.TRef.binary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

theorem entry_faces (c : Dev nD) : entry m c main_arg1 = m ((c : Thread nD τ).loc main_arg1) :=
  entry_of_unwritten m c main_arg1 (by
    simp only [hostOps0, hostOps0_1, hostOps0_2, hostOps0_3, hostOps0_4, hostOps0_5, hostOps0_6, List.flatten_cons,
      List.flatten_nil, List.append_nil, List.cons_append, List.nil_append, List.Forall, StableHlo.TRef.unary,
      StableHlo.TRef.binary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide))

/-- A reference that is no array of the windows and that the closing lines do not write ends where the region found it. -/
theorem exit_of_unwritten (dats : (p : Fin 1) → (c : Dev nD) → Dat τ (Elt F) Unit ℕ (UR sig nD τ) ℕ (cfgs p) c)
    (c : Dev nD) (b : Ref sig .tc) (hw : ∀ w, Pipeline.arrRef spec0 w ≠ b)
    (h : (hostOps1 : List (HloOp τ sig (Elt F))).Forall fun op => Proc.devRef .tc b ∉ op.writes) :
    Pipeline.afterTail₀ cfgs dats 0 (entry0 m) close c b = entry m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (entry0 m c) _ b hw]

theorem close_keeps_positions : (hostOps1 : List (HloOp τ sig (Elt F))).Forall fun op => Proc.devRef .tc main_arg0 ∉ op.writes := by
  simp only [hostOps1, List.Forall, StableHlo.nullary_writes, StableHlo.binary_writes, StableHlo.reshape_writes, Finset.mem_singleton]
  repeat' apply And.intro
  all_goals exact StableHlo.devRef_ne_of_ne (by decide)

theorem close_keeps_faces : (hostOps1 : List (HloOp τ sig (Elt F))).Forall fun op => Proc.devRef .tc main_arg1 ∉ op.writes := by
  simp only [hostOps1, List.Forall, StableHlo.nullary_writes, StableHlo.binary_writes, StableHlo.reshape_writes, Finset.mem_singleton]
  repeat' apply And.intro
  all_goals exact StableHlo.devRef_ne_of_ne (by decide)

/-- From a run to the library's post of the region's frame — each window's array at what the write-backs leave, every other
    buffer at what the closing lines leave — the two arguments end as launched. -/
theorem arguments_kept (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (entry0 m) close) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).2 main_arg0 (Pipeline.mem_restRefs_of main_arg0 (by decide) (by decide))).trans
      ((exit_of_unwritten m dats c main_arg0 (by decide) close_keeps_positions).trans (entry_positions m c)),
   ((h c).2 main_arg1 (Pipeline.mem_restRefs_of main_arg1 (by decide) (by decide))).trans
      ((exit_of_unwritten m dats c main_arg1 (by decide) close_keeps_faces).trans (entry_faces m c))⟩

end Cert.KernelIdeal.Region

end
-- ==== Proof.KernelIdeal.Cases.lean ====
/-
  The kernel body at one grid point, in each of the three situations the grid meets.

  The body keeps a running total in a one-element scratch buffer. At the FIRST point it first sets the total to zero;
  at every point it adds the point's partial sum (a function of the three input blocks) to the total; at the LAST
  point it also copies the total into the one-element output block. So a point is first (0), last (48) or neither, and
  in each situation the body is a straight line of whole-buffer loads and stores. Each run below says: given the three
  input buffers at their contents, the body ends with them unchanged, the scratch rewritten by the stores the run lists,
  and the output buffer either untouched (not the last point) or rewritten by the one store listed (the last point).
-/
import proofs.«138574_j73796128080164_1_alg».proof.Proof.KernelIdeal.Around

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- "This is the first point": the body's own test, the grid coordinate compared with 0. -/
abbrev atFirst (i : grid0.Coords) : Prop :=
  (Scalar.cmpi .ne (Scalar.extui (Scalar.cmpi .eq (BitVec.ofNat 32 (i 0).val) 0#32)) 0#32) = 1#1
/-- "This is the last point": the coordinate compared with 48. -/
abbrev atLast (i : grid0.Coords) : Prop := k0_cond2 i = 1#1

/-- Over the 49 points the first test holds at point 0 only, -/
theorem atFirst_iff : ∀ t : Fin cfg0.N, atFirst (grid0.coords t) ↔ t.val = 0 :=
  (by decide +kernel : ∀ t : Fin grid0.N, atFirst (grid0.coords t) ↔ t.val = 0)
/-- and the last at point 48 only. -/
theorem atLast_iff : ∀ t : Fin cfg0.N, atLast (grid0.coords t) ↔ t.val = 48 :=
  (by decide +kernel : ∀ t : Fin grid0.N, atLast (grid0.coords t) ↔ t.val = 48)

/-! ## The three runs -/

set_option maxHeartbeats 1000000 in
/-- A point that is neither first nor last: the scratch comes in at `acc`, the output buffer is not touched. -/
noncomputable def runMiddle (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : ¬atFirst i) (hL : ¬atLast i)
    (x v : Vec F S64x3x2048 .f32) (d : Vec F S1x1x2048 .f32) (acc : Vec F S1x1 .f32) :
    { LS : List (View.Piece (Elt F) S1x1 .f32) //
      ∀ (out : Vec F S1x1 .f32) (E : Set ℕ) (K : PUnit → sProp 𝕄),
        iprop(owns (c : Thread nD τ) a1 fullShare x ∗ owns (c : Thread nD τ) a2 fullShare v ∗ owns (c : Thread nD τ) a3 fullShare d
            ∗ owns (c : Thread nD τ) a4 fullShare out ∗ owns (c : Thread nD τ) a5 fullShare acc
            ∗ (iprop(owns (c : Thread nD τ) a1 fullShare x ∗ owns (c : Thread nD τ) a2 fullShare v ∗ owns (c : Thread nD τ) a3 fullShare d
                ∗ owns (c : Thread nD τ) a4 fullShare out
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, fun out E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3
    obtain rfl := h4.eq_unread hf4; obtain rfl := h5.eq_unread hf5
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

set_option maxHeartbeats 1000000 in
/-- The first point: whatever the scratch holds, it is set to zero before the point's partial sum is added; the output
    buffer is not touched. -/
noncomputable def runFirst (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : atFirst i) (hL : ¬atLast i)
    (x v : Vec F S64x3x2048 .f32) (d : Vec F S1x1x2048 .f32) :
    { LS : List (View.Piece (Elt F) S1x1 .f32) //
      ∀ (out : Vec F S1x1 .f32) (E : Set ℕ) (K : PUnit → sProp 𝕄),
        iprop(owns (c : Thread nD τ) a1 fullShare x ∗ owns (c : Thread nD τ) a2 fullShare v ∗ owns (c : Thread nD τ) a3 fullShare d
            ∗ owns (c : Thread nD τ) a4 fullShare out ∗ (∃ e, owns (c : Thread nD τ) a5 fullShare e)
            ∗ (iprop(owns (c : Thread nD τ) a1 fullShare x ∗ owns (c : Thread nD τ) a2 fullShare v ∗ owns (c : Thread nD τ) a3 fullShare d
                ∗ owns (c : Thread nD τ) a4 fullShare out
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, fun out E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%f4, %hf4, H4⟩, ⟨%e5, %f5, -, H5⟩, Hk⟩
    obtain rfl := h1.eq_unread hf1; obtain rfl := h2.eq_unread hf2; obtain rfl := h3.eq_unread hf3
    obtain rfl := h4.eq_unread hf4
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

set_option maxHeartbeats 1000000 in
/-- The last point: the scratch comes in at `acc`, the point's partial sum is added, and the total is copied into the
    output buffer, whatever that held. -/
noncomputable def runLast (c : Dev nD) (i : grid0.Coords)
    (a1 : Memref sig .tc .vmem S64x3x2048 .f32) (h1 : a1.IsWhole) (a2 : Memref sig .tc .vmem S64x3x2048 .f32) (h2 : a2.IsWhole)
    (a3 : Memref sig .tc .vmem S1x1x2048 .f32) (h3 : a3.IsWhole) (a4 : Memref sig .tc .vmem S1x1 .f32) (h4 : a4.IsWhole)
    (a5 : Memref sig .tc .vmem S1x1 .f32) (h5 : a5.IsWhole) (hF : ¬atFirst i) (hL : atLast i)
    (x v : Vec F S64x3x2048 .f32) (d : Vec F S1x1x2048 .f32) (acc : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x ∗ owns (c : Thread nD τ) a2 fullShare v ∗ owns (c : Thread nD τ) a3 fullShare d
            ∗ (∃ e, owns (c : Thread nD τ) a4 fullShare e) ∗ owns (c : Thread nD τ) a5 fullShare acc
            ∗ (iprop(owns (c : Thread nD τ) a1 fullShare x ∗ owns (c : Thread nD τ) a2 fullShare v ∗ owns (c : Thread nD τ) a3 fullShare d
                ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc0__laplacian_kernel i a1 h1 a2 h2 a3 h3 a4 h4 a5 h5) K } := by
  refine ⟨?_, ?_, fun E K => ?run⟩
  case run =>
    simp only [cc0__laplacian_kernel_eq_skeleton]; unfold cc0__laplacian_kernel_skel
    unfold owns
    iintro ⟨⟨%f1, %hf1, H1⟩, ⟨%f2, %hf2, H2⟩, ⟨%f3, %hf3, H3⟩, ⟨%e4, %f4, -, H4⟩, ⟨%f5, %hf5, H5⟩, Hk⟩
    obtain rfl := h1.eq_unread hf1; obtain rfl := h2.eq_unread hf2; obtain rfl := h3.eq_unread hf3
    obtain rfl := h5.eq_unread hf5
    sl_exec (disch := first | exact hF | exact hL)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.KernelIdeal.Region

end
-- ==== Proof.KernelIdeal.Run.lean ====
/-
  The region run point by point.

  The scratch buffer holds the running total. `totals n` is what it holds after point `n`: after point 0 what the
  first-point run leaves (zero plus the point's partial sum), after a later point what that point's run leaves over
  the previous total. The region's invariant between points is the scratch at that total. The three input windows are
  fetched at every point, so each staging buffer holds its array's block there; the output window's one-element block
  is stored at the last point only, with the final total, and written back there. With these as the proof data the
  library's launch theorem gives the run of the whole program, and from it the frame: the arguments end unchanged.
-/
import proofs.«138574_j73796128080164_1_alg».proof.Proof.KernelIdeal.Cases
import Idealize.ShloMosaic.Lib.Ring

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- The staging buffer each window is on at point `t`, and that it is a whole buffer. -/
abbrev st1 (t : Fin cfg0.N) : Memref sig .tc .vmem S64x3x2048 .f32 := win0_0.stage (cfg0.slots t 0)
abbrev hst1 (t : Fin cfg0.N) : (st1 t).IsWhole := hstage0_0 ((cfg0.slots t 0).cast nbuf0_0)
abbrev st2 (t : Fin cfg0.N) : Memref sig .tc .vmem S64x3x2048 .f32 := win0_1.stage (cfg0.slots t 1)
abbrev hst2 (t : Fin cfg0.N) : (st2 t).IsWhole := hstage0_1 ((cfg0.slots t 1).cast nbuf0_1)
abbrev st3 (t : Fin cfg0.N) : Memref sig .tc .vmem S1x1x2048 .f32 := win0_2.stage (cfg0.slots t 2)
abbrev hst3 (t : Fin cfg0.N) : (st3 t).IsWhole := hstage0_2 ((cfg0.slots t 2).cast nbuf0_2)
abbrev st4 (t : Fin cfg0.N) : Memref sig .tc .vmem S1x1 .f32 := win0_3.stage (cfg0.slots t 3)
abbrev hst4 (t : Fin cfg0.N) : (st4 t).IsWhole := hstage0_3 ((cfg0.slots t 3).cast nbuf0_3)
/-- The scratch: one element, the kernel's own. -/
abbrev scr : Memref sig .tc .vmem S1x1 .f32 := Memref.whole cc0_scratch0
abbrev scrV : View sig .tc .vmem S1x1 .f32 := scr.view
/-- The output window's one staging buffer, as a view. -/
abbrev outV : View sig .tc .vmem S1x1 .f32 := (Memref.whole cc0_stg3_0 : Memref sig .tc .vmem S1x1 .f32).view

/-- What a one-element buffer holds once the listed stores have been made, read back (over contents that do not matter when
    the stores cover the buffer). -/
def readBack (V : View sig .tc .vmem S1x1 .f32) (L : List (View.Piece (Elt F) S1x1 .f32)) : Vec F S1x1 .f32 :=
  V.read (Elt F) (V.writes (Elt F) V.junk L)

/-- The region's invariant with the scratch spelt out: the scratch at some contents, and the generator register. -/
theorem invA_eq (c : Dev nD) :
    (Pipeline.ΦA spec0 c : sProp 𝕄) = iprop(iprop((∃ e, owns (c : Thread nD τ) scr fullShare e)) ∗ (∃ r, prngReg c r)) := by
  unfold Pipeline.ΦA; rw [scopedRest0_eq]; simp only [scr, owns_whole]; try rfl

/-! ## The blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## Each run's stores cover the buffer they write -/

theorem first_covers (c : Dev nD) (t : Fin cfg0.N) (hF : atFirst (grid0.coords t)) (hL : ¬atLast (grid0.coords t))
    (x v : Vec F S64x3x2048 .f32) (d : Vec F S1x1x2048 .f32) (y : S1x1.Idx) :
    ∃ pc ∈ (runFirst c (grid0.coords t) (st1 t) (hst1 t) (st2 t) (hst2 t) (st3 t) (hst3 t) (st4 t) (hst4 t) scr (Memref.isWhole_whole _) hF hL x v d).1, y ∈ pc.1.set :=
  View.cover_of_tiledL (runFirst c (grid0.coords t) (st1 t) (hst1 t) (st2 t) (hst2 t) (st3 t) (hst3 t) (st4 t) (hst4 t) scr (Memref.isWhole_whole _) hF hL x v d).1 S1x1.size (by sl_kernel_rfl) y

theorem middle_covers (c : Dev nD) (t : Fin cfg0.N) (hF : ¬atFirst (grid0.coords t)) (hL : ¬atLast (grid0.coords t))
    (x v : Vec F S64x3x2048 .f32) (d : Vec F S1x1x2048 .f32) (acc : Vec F S1x1 .f32) (y : S1x1.Idx) :
    ∃ pc ∈ (runMiddle c (grid0.coords t) (st1 t) (hst1 t) (st2 t) (hst2 t) (st3 t) (hst3 t) (st4 t) (hst4 t) scr (Memref.isWhole_whole _) hF hL x v d acc).1, y ∈ pc.1.set :=
  View.cover_of_tiledL (runMiddle c (grid0.coords t) (st1 t) (hst1 t) (st2 t) (hst2 t) (st3 t) (hst3 t) (st4 t) (hst4 t) scr (Memref.isWhole_whole _) hF hL x v d acc).1 S1x1.size (by sl_kernel_rfl) y

theorem last_covers_scratch (c : Dev nD) (t : Fin cfg0.N) (hF : ¬atFirst (grid0.coords t)) (hL : atLast (grid0.coords t))
    (x v : Vec F S64x3x2048 .f32) (d : Vec F S1x1x2048 .f32) (acc : Vec F S1x1 .f32) (y : S1x1.Idx) :
    ∃ pc ∈ (runLast c (grid0.coords t) (st1 t) (hst1 t) (st2 t) (hst2 t) (st3 t) (hst3 t) (st4 t) (hst4 t) scr (Memref.isWhole_whole _) hF hL x v d acc).2.1, y ∈ pc.1.set :=
  View.cover_of_tiledL (runLast c (grid0.coords t) (st1 t) (hst1 t) (st2 t) (hst2 t) (st3 t) (hst3 t) (st4 t) (hst4 t) scr (Memref.isWhole_whole _) hF hL x v d acc).2.1 S1x1.size (by sl_kernel_rfl) y

theorem last_covers_out (c : Dev nD) (t : Fin cfg0.N) (hF : ¬atFirst (grid0.coords t)) (hL : atLast (grid0.coords t))
    (x v : Vec F S64x3x2048 .f32) (d : Vec F S1x1x2048 .f32) (acc : Vec F S1x1 .f32) (y : S1x1.Idx) :
    ∃ pc ∈ (runLast c (grid0.coords t) (st1 t) (hst1 t) (st2 t) (hst2 t) (st3 t) (hst3 t) (st4 t) (hst4 t) scr (Memref.isWhole_whole _) hF hL x v d acc).1, y ∈ pc.1.set :=
  View.cover_of_tiledL (runLast c (grid0.coords t) (st1 t) (hst1 t) (st2 t) (hst2 t) (st3 t) (hst3 t) (st4 t) (hst4 t) scr (Memref.isWhole_whole _) hF hL x v d acc).1 S1x1.size (by sl_kernel_rfl) y

/-! ## The running total -/

theorem first_at_zero {n : ℕ} (hn : n < cfg0.N) (h : n = 0) : atFirst (grid0.coords ⟨n, hn⟩) := (atFirst_iff ⟨n, hn⟩).mpr h
theorem not_first {n : ℕ} (hn : n < cfg0.N) (h : n ≠ 0) : ¬atFirst (grid0.coords ⟨n, hn⟩) := fun hf => h ((atFirst_iff ⟨n, hn⟩).mp hf)
theorem last_at {n : ℕ} (hn : n < cfg0.N) (h : n = 48) : atLast (grid0.coords ⟨n, hn⟩) := (atLast_iff ⟨n, hn⟩).mpr h
theorem not_last {n : ℕ} (hn : n < cfg0.N) (h : n ≠ 48) : ¬atLast (grid0.coords ⟨n, hn⟩) := fun hl => h ((atLast_iff ⟨n, hn⟩).mp hl)

/-- THE RUNNING TOTAL: what the scratch holds after the body at point `n`. -/
def totals (c : Dev nD) : (n : ℕ) → n < cfg0.N → Vec F S1x1 .f32
  | 0, hn => readBack scrV (runFirst c (grid0.coords ⟨0, hn⟩) (st1 ⟨0, hn⟩) (hst1 ⟨0, hn⟩) (st2 ⟨0, hn⟩) (hst2 ⟨0, hn⟩) (st3 ⟨0, hn⟩) (hst3 ⟨0, hn⟩) (st4 ⟨0, hn⟩) (hst4 ⟨0, hn⟩) scr (Memref.isWhole_whole _) (first_at_zero hn rfl) (not_last hn (by decide)) (blk m c 0 ⟨0, hn⟩) (blk m c 1 ⟨0, hn⟩) (blk m c 2 ⟨0, hn⟩)).1
  | n + 1, hn =>
    if h : n + 1 = 48 then
      readBack scrV (runLast c (grid0.coords ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩) (st4 ⟨n + 1, hn⟩) (hst4 ⟨n + 1, hn⟩) scr (Memref.isWhole_whole _) (not_first hn (Nat.succ_ne_zero n)) (last_at hn h) (blk m c 0 ⟨n + 1, hn⟩) (blk m c 1 ⟨n + 1, hn⟩) (blk m c 2 ⟨n + 1, hn⟩) (totals c n (Nat.lt_of_succ_lt hn))).2.1
    else
      readBack scrV (runMiddle c (grid0.coords ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩) (st4 ⟨n + 1, hn⟩) (hst4 ⟨n + 1, hn⟩) scr (Memref.isWhole_whole _) (not_first hn (Nat.succ_ne_zero n)) (not_last hn h) (blk m c 0 ⟨n + 1, hn⟩) (blk m c 1 ⟨n + 1, hn⟩) (blk m c 2 ⟨n + 1, hn⟩) (totals c n (Nat.lt_of_succ_lt hn))).1

theorem pred_lt (t : Fin cfg0.N) : t.val - 1 < cfg0.N := Nat.lt_of_le_of_lt (Nat.sub_le _ _) t.isLt

theorem totals_first (c : Dev nD) (t : Fin cfg0.N) (h0 : t.val = 0) (hL : t.val ≠ 48) :
    totals m c t.val t.isLt = readBack scrV (runFirst c (grid0.coords t) (st1 t) (hst1 t) (st2 t) (hst2 t) (st3 t) (hst3 t) (st4 t) (hst4 t) scr (Memref.isWhole_whole _) (first_at_zero t.isLt h0) (not_last t.isLt hL) (blk m c 0 t) (blk m c 1 t) (blk m c 2 t)).1 := by
  obtain ⟨n, hn⟩ := t
  cases n with
  | zero => rfl
  | succ n => exact absurd h0 (Nat.succ_ne_zero n)

theorem totals_middle (c : Dev nD) (t : Fin cfg0.N) (h0 : t.val ≠ 0) (hL : t.val ≠ 48) :
    totals m c t.val t.isLt = readBack scrV (runMiddle c (grid0.coords t) (st1 t) (hst1 t) (st2 t) (hst2 t) (st3 t) (hst3 t) (st4 t) (hst4 t) scr (Memref.isWhole_whole _) (not_first t.isLt h0) (not_last t.isLt hL) (blk m c 0 t) (blk m c 1 t) (blk m c 2 t) (totals m c (t.val - 1) (pred_lt t))).1 := by
  obtain ⟨n, hn⟩ := t
  cases n with
  | zero => exact absurd rfl h0
  | succ n => exact (dif_neg hL).trans rfl

theorem totals_last (c : Dev nD) (t : Fin cfg0.N) (h0 : t.val ≠ 0) (hL : t.val = 48) :
    totals m c t.val t.isLt = readBack scrV (runLast c (grid0.coords t) (st1 t) (hst1 t) (st2 t) (hst2 t) (st3 t) (hst3 t) (st4 t) (hst4 t) scr (Memref.isWhole_whole _) (not_first t.isLt h0) (last_at t.isLt hL) (blk m c 0 t) (blk m c 1 t) (blk m c 2 t) (totals m c (t.val - 1) (pred_lt t))).2.1 := by
  obtain ⟨n, hn⟩ := t
  cases n with
  | zero => exact absurd rfl h0
  | succ n => exact (dif_pos hL).trans rfl

/-- The last point. -/
abbrev tLast : Fin cfg0.N := ⟨48, by decide⟩

/-- What the last point stores into the output block: the stores of its run read back. -/
def lastOut (c : Dev nD) : Vec F S1x1 .f32 :=
  readBack outV (runLast c (grid0.coords tLast) (st1 tLast) (hst1 tLast) (st2 tLast) (hst2 tLast) (st3 tLast) (hst3 tLast) (st4 tLast) (hst4 tLast) scr (Memref.isWhole_whole _) (not_first tLast.isLt (by decide)) (last_at tLast.isLt rfl) (blk m c 0 tLast) (blk m c 1 tLast) (blk m c 2 tLast) (totals m c (tLast.val - 1) (pred_lt tLast))).1

/-! ## The invariant between points -/

/-- Before the first point the scratch holds anything; before a later one, the total so far. -/
def inv (c : Dev nD) : (n : ℕ) → n ≤ cfg0.N → sProp 𝕄
  | 0, _ => Pipeline.ΦA spec0 c
  | n + 1, hn => iprop(iprop(owns (c : Thread nD τ) scr fullShare (totals m c n hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare (totals m c n hn)) ∗ (∃ r, prngReg c r)) := rfl

theorem inv_pos (c : Dev nD) (n : ℕ) (h : n ≤ cfg0.N) (hz : n ≠ 0) :
    inv m c n h = iprop(iprop(owns (c : Thread nD τ) scr fullShare (totals m c (n - 1) (by omega))) ∗ (∃ r, prngReg c r)) := by
  cases n with
  | zero => exact absurd rfl hz
  | succ n => rfl

/-! ## The proof data -/

/-- The region's proof data on core `c`: the arrays as the region finds them; after the body each input's buffer at its
    block, the output's at the last point's store (consulted at the last point only: elsewhere the window is idle and
    not written back); between points the scratch at the running total; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => lastOut m c
  Φ t := inv m c t.val (Nat.le_of_lt_succ t.isLt)
  q _ := fullShare
  owed _ := 0

theorem arrays_eq (c : Dev nD) (w : Fin cfg0.W) : (dats m 0 c).A w = entry m c (Pipeline.arrRef spec0 w) := by
  dsimp only [dats]

theorem inv_at (c : Dev nD) (t : Fin cfg0.N) : (dats m 0 c).Φ t.castSucc = inv m c t.val (Nat.le_of_lt t.isLt) := by
  dsimp only [dats]; simp only [Fin.coe_castSucc]

theorem after_in0 (c : Dev nD) (t : Fin cfg0.N) : (dats m 0 c).after 0 t = blk m c 0 t := by dsimp only [dats]
theorem after_in1 (c : Dev nD) (t : Fin cfg0.N) : (dats m 0 c).after 1 t = blk m c 1 t := by dsimp only [dats]
theorem after_in2 (c : Dev nD) (t : Fin cfg0.N) : (dats m 0 c).after 2 t = blk m c 2 t := by dsimp only [dats]
theorem after_out (c : Dev nD) (t : Fin cfg0.N) : (dats m 0 c).after 3 t = lastOut m c := by dsimp only [dats]

/-- An input window is fetched at every point: its buffer holds its array's block there. -/
theorem found_in0 (c : Dev nD) (t : Fin cfg0.N) (d) : (dats m 0 c).before 0 t d = blk m c 0 t :=
  ((dats m 0 c).before_fetched 0 t (fetch0_0 t) d).trans (by unfold Dat.fetched Dat.blockOf blk; rw [arrays_eq]; try rfl)
theorem found_in1 (c : Dev nD) (t : Fin cfg0.N) (d) : (dats m 0 c).before 1 t d = blk m c 1 t :=
  ((dats m 0 c).before_fetched 1 t (fetch0_1 t) d).trans (by unfold Dat.fetched Dat.blockOf blk; rw [arrays_eq]; try rfl)
theorem found_in2 (c : Dev nD) (t : Fin cfg0.N) (d) : (dats m 0 c).before 2 t d = blk m c 2 t :=
  ((dats m 0 c).before_fetched 2 t (fetch0_2 t) d).trans (by unfold Dat.fetched Dat.blockOf blk; rw [arrays_eq]; try rfl)

/-! ## Where the output window is idle -/

theorem out_idle : ∀ t : Fin cfg0.N, t.val ≠ 48 → cfg0.idle 3 (grid0.coords t) = true :=
  (by decide +kernel : ∀ t : Fin grid0.N, t.val ≠ 48 → idle0 3 (grid0.coords t) = true)
theorem out_unflushed : ∀ t : Fin cfg0.N, t.val ≠ 48 → (cfg0.win 3).flush t = false :=
  (by decide +kernel : ∀ t : Fin grid0.N, t.val ≠ 48 → win0_3.flush t = false)
theorem out_live : ∀ t : Fin cfg0.N, t.val = 48 → cfg0.idle 3 (grid0.coords t) = false :=
  (by decide +kernel : ∀ t : Fin grid0.N, t.val = 48 → idle0 3 (grid0.coords t) = false)

theorem leaves_in0 (c : Dev nD) (t : Fin cfg0.N) : (dats m 0 c).leavesExact 0 t = owns (c : Thread nD τ) (st1 t) fullShare (blk m c 0 t) := by
  unfold Dat.leavesExact; rw [show cfg0.idle 0 (grid0.coords t) = false from rfl, after_in0]
theorem leaves_in1 (c : Dev nD) (t : Fin cfg0.N) : (dats m 0 c).leavesExact 1 t = owns (c : Thread nD τ) (st2 t) fullShare (blk m c 1 t) := by
  unfold Dat.leavesExact; rw [show cfg0.idle 1 (grid0.coords t) = false from rfl, after_in1]
theorem leaves_in2 (c : Dev nD) (t : Fin cfg0.N) : (dats m 0 c).leavesExact 2 t = owns (c : Thread nD τ) (st3 t) fullShare (blk m c 2 t) := by
  unfold Dat.leavesExact; rw [show cfg0.idle 2 (grid0.coords t) = false from rfl, after_in2]
theorem leaves_out_last (c : Dev nD) (t : Fin cfg0.N) (h : t.val = 48) :
    (dats m 0 c).leavesExact 3 t = owns (c : Thread nD τ) (st4 t) fullShare (lastOut m c) := by
  unfold Dat.leavesExact; rw [out_live t h, after_out]

/-! ## The body obligation -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st1 t) fullShare ((dats m 0 c).before 0 t d))
    ∗ (∃ d, owns (c : Thread nD τ) (st2 t) fullShare ((dats m 0 c).before 1 t d))
    ∗ (∃ d, owns (c : Thread nD τ) (st3 t) fullShare ((dats m 0 c).before 2 t d))
    ∗ (∃ d, owns (c : Thread nD τ) (st4 t) fullShare ((dats m 0 c).before 3 t d)))

/-- and what it gives back. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: which of the three situations the point is in is read off its number; the inputs' buffers hold
    their blocks; the scratch holds the previous total (anything, at the first point) and is handed back at this point's;
    the output buffer is handed back as found, except at the last point, where it holds the store. -/
theorem body_sound (c : Dev nD) (t : Fin cfg0.N) :
    handed m c t ⊢ wp frame (wpE (defs₀ (F := F)) Variants.none c none) Set.univ (bodyAt0 t) (fun _ => returned m c t) := by
  unfold handed returned bodyAt0
  simp only [found_in0, found_in1, found_in2]
  rw [show (dats m 0 c).owesAt () t.succ = (dats m 0 c).owesAt () t.castSucc from rfl]
  rw [show (dats m 0 c).Φ t.succ = inv m c (t.val + 1) t.isLt from rfl, inv_succ]
  rw [leaves_in0, leaves_in1, leaves_in2, inv_at]
  have hN : t.val < 49 := lt_of_lt_of_eq t.isLt (show cfg0.N = 49 from N_0)
  by_cases h0 : t.val = 0
  · have hL : t.val ≠ 48 := by omega
    rw [Dat.leavesExact_idle (dats m 0 c) 3 t (out_idle t hL) (out_unflushed t hL), totals_first m c t h0 hL,
      inv_zero m c _ _ h0, invA_eq]
    iintro ⟨⟨HS, Hg⟩, Ho, ⟨%d1, H1⟩, ⟨%d2, H2⟩, ⟨%d3, H3⟩, ⟨%d4, H4⟩⟩
    iapply ((runFirst c (grid0.coords t) (st1 t) (hst1 t) (st2 t) (hst2 t) (st3 t) (hst3 t) (st4 t) (hst4 t) scr (Memref.isWhole_whole _) (first_at_zero t.isLt h0) (not_last t.isLt hL) (blk m c 0 t) (blk m c 1 t) (blk m c 2 t)).2 _ Set.univ _)
    isplitl [H1]; · iexact H1
    isplitl [H2]; · iexact H2
    isplitl [H3]; · iexact H3
    isplitl [H4]; · iexact H4
    isplitl [HS]; · iexact HS
    iintro ⟨H1, H2, H3, H4, ⟨%e, HS⟩⟩
    isplitl [HS Hg]
    · isplitl [HS]
      · unfold owns; iexists _; isplitr
        swap; · iexact HS
        ipureintro; exact View.read_writes_of_cover _ _ _ _ _ (first_covers (F := F) c t _ _ _ _ _)
      iexact Hg
    isplitl [Ho]; · iexact Ho
    isplitl [H1]; · iexact H1
    isplitl [H2]; · iexact H2
    isplitl [H3]; · iexact H3
    iexists _; iexact H4
  · by_cases hL : t.val = 48
    · rw [leaves_out_last m c t hL, totals_last m c t h0 hL, inv_pos m c _ _ h0]
      have ht : t = tLast := Fin.ext hL
      subst ht
      iintro ⟨⟨HS, Hg⟩, Ho, ⟨%d1, H1⟩, ⟨%d2, H2⟩, ⟨%d3, H3⟩, ⟨%d4, H4⟩⟩
      iapply ((runLast c (grid0.coords tLast) (st1 tLast) (hst1 tLast) (st2 tLast) (hst2 tLast) (st3 tLast) (hst3 tLast) (st4 tLast) (hst4 tLast) scr (Memref.isWhole_whole _) (not_first tLast.isLt h0) (last_at tLast.isLt hL) (blk m c 0 tLast) (blk m c 1 tLast) (blk m c 2 tLast) _).2.2 Set.univ _)
      isplitl [H1]; · iexact H1
      isplitl [H2]; · iexact H2
      isplitl [H3]; · iexact H3
      isplitl [H4]; · iexists _; iexact H4
      isplitl [HS]; · iexact HS
      iintro ⟨H1, H2, H3, ⟨%e4, H4⟩, ⟨%e, HS⟩⟩
      isplitl [HS Hg]
      · isplitl [HS]
        · unfold owns; iexists _; isplitr
          swap; · iexact HS
          ipureintro; exact View.read_writes_of_cover _ _ _ _ _ (last_covers_scratch (F := F) c tLast _ _ _ _ _ _)
        iexact Hg
      isplitl [Ho]; · iexact Ho
      isplitl [H1]; · iexact H1
      isplitl [H2]; · iexact H2
      isplitl [H3]; · iexact H3
      unfold owns; iexists _; isplitr
      swap; · iexact H4
      ipureintro; unfold lastOut readBack
      exact View.read_writes_of_cover _ _ _ _ _ (last_covers_out (F := F) c tLast _ _ _ _ _ _)
    · rw [Dat.leavesExact_idle (dats m 0 c) 3 t (out_idle t hL) (out_unflushed t hL), totals_middle m c t h0 hL,
        inv_pos m c _ _ h0]
      iintro ⟨⟨HS, Hg⟩, Ho, ⟨%d1, H1⟩, ⟨%d2, H2⟩, ⟨%d3, H3⟩, ⟨%d4, H4⟩⟩
      iapply ((runMiddle c (grid0.coords t) (st1 t) (hst1 t) (st2 t) (hst2 t) (st3 t) (hst3 t) (st4 t) (hst4 t) scr (Memref.isWhole_whole _) (not_first t.isLt h0) (not_last t.isLt hL) (blk m c 0 t) (blk m c 1 t) (blk m c 2 t) _).2 _ Set.univ _)
      isplitl [H1]; · iexact H1
      isplitl [H2]; · iexact H2
      isplitl [H3]; · iexact H3
      isplitl [H4]; · iexact H4
      isplitl [HS]; · iexact HS
      iintro ⟨H1, H2, H3, H4, ⟨%e, HS⟩⟩
      isplitl [HS Hg]
      · isplitl [HS]
        · unfold owns; iexists _; isplitr
          swap; · iexact HS
          ipureintro; exact View.read_writes_of_cover _ _ _ _ _ (middle_covers (F := F) c t _ _ _ _ _ _)
        iexact Hg
      isplitl [Ho]; · iexact Ho
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact body_sound m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch back at whatever it holds. -/
theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 49 := N_0; omega), invA_eq]
  iintro ⟨HS, Hg⟩
  isplitl [HS]
  · iexists _; iexact HS
  iexact Hg

/-! ## The run and the frame -/

set_option backward.isDefEq.respectTransparency.types false in
/-- Every weakly fair execution of the program terminates, faulting nowhere, in a state where each window's array holds what
    the write-backs leave and every other buffer what the closing host lines leave. -/
theorem run_main : θ_run defs (onTc (τ := τ) (main (F := F))) (s₀ m ρ)
    (Pipeline.FramePost cfgs (dats m) 0 (Pipeline.afterTail₀ cfgs (dats m) 0 (entry0 m) close)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry0 m) (opss := close) (hsub := close_refs) (hfresh := close_fresh) (hkeep := close_keeps)
    (hmain := main_around m Variants.none) (hA := arrays_eq m) (hin := inv_in m) (hout := inv_out m)

/-- THE FRAME: the program runs to the end, faults nowhere, and leaves both arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => arguments_kept m (dats m) r h c) (run_main m ρ)

end Cert.KernelIdeal.Region

end
-- ==== Proof.KernelIdeal.Total.lean ====
/-
  The running total through the body's arithmetic.

  Each run's stores, read back, are the body's arithmetic applied to what the run loaded: the scratch ends at the previous
  total plus the point's partial sum (at the first point the previous total is the zero just stored), and at the last
  point the output block ends at the same value, read back from the scratch. So the total obeys
      total 0 = (zero) ⊕ partial 0,      total (n + 1) = total n ⊕ partial (n + 1),
  where ⊕ is the body's one pure function of the three input blocks and the previous total.
-/
import proofs.«138574_j73796128080164_1_alg».proof.Proof.KernelIdeal.Run
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2 : (![0, 0] : Fin 2 → ℕ) = fun _ => 0 := by funext a; fin_cases a <;> rfl
theorem off3 : (![0, 0, 0] : Fin 3 → ℕ) = fun _ => 0 := by funext a; fin_cases a <;> rfl

/-- One step of the body's arithmetic: the previous total `acc` and the partial sum of the blocks `x`, `v`, `d`. -/
abbrev step (x v : Vec F S64x3x2048 .f32) (d : Vec F S1x1x2048 .f32) (acc : Vec F S1x1 .f32) : Vec F S1x1 .f32 :=
  k0_pay1 (k0_pay3 x v d acc)

/-- A point that is neither first nor last leaves the scratch one step on from what it found. -/
theorem middle_total (c : Dev nD) (t : Fin cfg0.N) (hF : ¬atFirst (grid0.coords t)) (hL : ¬atLast (grid0.coords t))
    (x v : Vec F S64x3x2048 .f32) (d : Vec F S1x1x2048 .f32) (acc : Vec F S1x1 .f32) :
    readBack scrV (runMiddle c (grid0.coords t) (st1 t) (hst1 t) (st2 t) (hst2 t) (st3 t) (hst3 t) (st4 t) (hst4 t) scr (Memref.isWhole_whole _) hF hL x v d acc).1 = step x v d acc := by
  unfold readBack
  rw [View.read_writes_eq_canon _ _ _ (middle_covers c t hF hL x v d acc)]
  unfold runMiddle; dsimp only; sl_unfold_words
  rw [View.canon_unit_zero off2]
  simp only [View.readAt_eq_ld, Memref.IsWhole.read_unread, View.ld_unit_zero (S := S64x3x2048) off3,
    View.ld_unit_zero (S := S1x1x2048) off3, View.ld_unit_zero (S := S1x1) off2]
  exact congrArg (fun a => k0_pay1 (k0_pay3 x v d a)) ((Memref.isWhole_whole cc0_scratch0).read_unread acc)

/-- The first point leaves it one step on from zero. -/
theorem first_total (c : Dev nD) (t : Fin cfg0.N) (hF : atFirst (grid0.coords t)) (hL : ¬atLast (grid0.coords t))
    (x v : Vec F S64x3x2048 .f32) (d : Vec F S1x1x2048 .f32) :
    readBack scrV (runFirst c (grid0.coords t) (st1 t) (hst1 t) (st2 t) (hst2 t) (st3 t) (hst3 t) (st4 t) (hst4 t) scr (Memref.isWhole_whole _) hF hL x v d).1 = step x v d (k0_pay2 (F := F)) := by
  unfold readBack
  rw [View.read_writes_eq_canon _ _ _ (first_covers c t hF hL x v d)]
  unfold runFirst; dsimp only; sl_unfold_words
  rw [View.canon_cons_unit_zero off2]
  simp only [View.readAt_eq_ld, Memref.IsWhole.read_unread, View.ld_unit_zero (S := S64x3x2048) off3,
    View.ld_unit_zero (S := S1x1x2048) off3, View.ld_unit_zero (S := S1x1) off2]
  exact congrArg (fun a => k0_pay1 (k0_pay3 x v d a)) (View.readCov_unit_zero (S := S1x1) _ off2 _ _)

/-- The last point leaves the scratch one step on, -/
theorem last_total (c : Dev nD) (t : Fin cfg0.N) (hF : ¬atFirst (grid0.coords t)) (hL : atLast (grid0.coords t))
    (x v : Vec F S64x3x2048 .f32) (d : Vec F S1x1x2048 .f32) (acc : Vec F S1x1 .f32) :
    readBack scrV (runLast c (grid0.coords t) (st1 t) (hst1 t) (st2 t) (hst2 t) (st3 t) (hst3 t) (st4 t) (hst4 t) scr (Memref.isWhole_whole _) hF hL x v d acc).2.1 = step x v d acc := by
  unfold readBack
  rw [View.read_writes_eq_canon _ _ _ (last_covers_scratch c t hF hL x v d acc)]
  unfold runLast; dsimp only; sl_unfold_words
  rw [View.canon_unit_zero off2]
  simp only [View.readAt_eq_ld, Memref.IsWhole.read_unread, View.ld_unit_zero (S := S64x3x2048) off3,
    View.ld_unit_zero (S := S1x1x2048) off3, View.ld_unit_zero (S := S1x1) off2]
  exact congrArg (fun a => k0_pay1 (k0_pay3 x v d a)) ((Memref.isWhole_whole cc0_scratch0).read_unread acc)

/-- and the output block at that same value. -/
theorem last_out (c : Dev nD) (t : Fin cfg0.N) (hF : ¬atFirst (grid0.coords t)) (hL : atLast (grid0.coords t))
    (x v : Vec F S64x3x2048 .f32) (d : Vec F S1x1x2048 .f32) (acc : Vec F S1x1 .f32) :
    readBack outV (runLast c (grid0.coords t) (st1 t) (hst1 t) (st2 t) (hst2 t) (st3 t) (hst3 t) (st4 t) (hst4 t) scr (Memref.isWhole_whole _) hF hL x v d acc).1 = step x v d acc := by
  unfold readBack
  rw [View.read_writes_eq_canon _ _ _ (last_covers_out c t hF hL x v d acc)]
  unfold runLast; dsimp only; sl_unfold_words
  rw [View.canon_unit_zero off2]
  refine (View.readCov_unit_zero (S := S1x1) _ off2 _ _).trans ?_
  simp only [View.readAt_eq_ld, Memref.IsWhole.read_unread, View.ld_unit_zero (S := S64x3x2048) off3,
    View.ld_unit_zero (S := S1x1x2048) off3, View.ld_unit_zero (S := S1x1) off2]
  exact congrArg (fun a => k0_pay1 (k0_pay3 x v d a)) ((Memref.isWhole_whole cc0_scratch0).read_unread acc)

/-! ## The recursion -/

theorem totals_start (c : Dev nD) (t : Fin cfg0.N) (h0 : t.val = 0) :
    totals m c t.val t.isLt = step (blk m c 0 t) (blk m c 1 t) (blk m c 2 t) (k0_pay2 (F := F)) := by
  have hL : t.val ≠ 48 := by omega
  rw [totals_first m c t h0 hL]
  exact first_total c t _ _ _ _ _

theorem totals_step (c : Dev nD) (t : Fin cfg0.N) (h0 : t.val ≠ 0) :
    totals m c t.val t.isLt = step (blk m c 0 t) (blk m c 1 t) (blk m c 2 t) (totals m c (t.val - 1) (pred_lt t)) := by
  by_cases hL : t.val = 48
  · rw [totals_last m c t h0 hL]; exact last_total c t _ _ _ _ _ _
  · rw [totals_middle m c t h0 hL]; exact middle_total c t _ _ _ _ _ _

/-- What the last point stores into the output block is the last total. -/
theorem lastOut_eq (c : Dev nD) : lastOut m c = totals m c tLast.val tLast.isLt := by
  rw [totals_step m c tLast (by decide)]
  unfold lastOut
  exact last_out c tLast _ _ _ _ _ _

end Cert.KernelIdeal.Region

end
-- ==== Proof.Spec.lean ====
/-
  The quantity both programs compute. A mesh has 100000 vertices in 64 batches, each vertex a point of
  3-space. Beside the positions `X` it is given, per vertex, the sum `N` of the positions of its neighbours
  (with multiplicity) and a divisor `D` (the number of neighbours, at least one). The loss is the mean, over
  batches and vertices, of the distance from a vertex to the mean of its neighbours:

      loss = ( ∑ b, ∑ v, √( ∑ c, (X b v c - N b v c / D v)² ) ) / 6400000

  on the extended reals, every operation the exact one.
-/
import Idealize.ShloMosaic.PureOps.Ideal
import Idealize.ShloMosaic.Lib.ValueIdx

noncomputable section

namespace Cert.MeshLoss

open Idealize.ShloMosaic Idealize.ShloMosaic.ValueIdx

/-- Positions, and sums of neighbours' positions: batch, vertex, coordinate. -/
abbrev SPos : Shape := ⟨3, ![64, 100000, 3]⟩
/-- One number per vertex. -/
abbrev SVert : Shape := ⟨1, ![100000]⟩
/-- A scalar. -/
abbrev SScal : Shape := ⟨0, ![]⟩

/-- One coordinate of the vector from the neighbours' mean `n / d` to the vertex, squared. -/
def sq (x n d : EReal) : EReal := (x - Ideal.div n d) * (x - Ideal.div n d)

/-- The distance from a vertex `(x0, x1, x2)` to the mean `(n0, n1, n2) / d` of its neighbours. -/
def dist (x0 x1 x2 n0 n1 n2 d : EReal) : EReal :=
  Ideal.sqrt ((sq x0 n0 d + sq x1 n1 d) + sq x2 n2 d)

/-- That distance for vertex `v` of batch `b`. -/
def distAt (X N : SPos.Idx → EReal) (D : SVert.Idx → EReal) (b : Fin 64) (v : Fin 100000) : EReal :=
  dist (X (ix3 b v 0)) (X (ix3 b v 1)) (X (ix3 b v 2)) (N (ix3 b v 0)) (N (ix3 b v 1)) (N (ix3 b v 2)) (D (ix1 v))

/-- The distances summed over batches and vertices. -/
def total (X N : SPos.Idx → EReal) (D : SVert.Idx → EReal) : EReal :=
  ∑ b : Fin 64, ∑ v : Fin 100000, distAt X N D b v

/-- The mean: the total divided by 64 · 100000 (the f32 pattern of 6400000, exact). -/
def loss (X N : SPos.Idx → EReal) (D : SVert.Idx → EReal) : SScal.Idx → EReal :=
  fun _ => Ideal.div (total X N D) (Ideal.ofBits .f32 0x4AC35000#32)

end Cert.MeshLoss

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.Payload.lean ====
/-
  One tile of the kernel, as arithmetic.

  A tile holds the positions and the neighbour sums of 2048 consecutive vertices in all 64 batches, coordinate by
  coordinate, and the 2048 divisors. At lane `l` of batch `b` the body takes, per coordinate, the position less the
  neighbour sum over the lane's divisor, squares it, adds the three squares in the order of the coordinates and takes the
  square root: the distance of the specification. It sums the distances along the 2048 lanes of each batch, then the 64
  batch sums, both from zero, and adds the result to the accumulator. So the new accumulator is the old one plus the sum,
  over batches and lanes, of the tile's distances. The two other values the body stores are the accumulator unchanged and
  zero.
-/
import proofs.«138574_j73796128080164_1_alg».proof.Proof.Gen.KernelIdeal.Skeleton
import proofs.«138574_j73796128080164_1_alg».proof.Proof.Spec
import proofs.«138574_j73796128080164_1_alg».proof.Proof.LibRowSumZero
import proofs.«138574_j73796128080164_1_alg».proof.Proof.LibKeepdims
import Idealize.ShloMosaic.Lib.ValueLayout

noncomputable section

namespace Cert.MeshLoss.Tile

open Cert.KernelIdeal Cert.KernelIdeal.Gen Idealize.ShloMosaic Idealize.ShloMosaic.ValueIdx

variable {α : Type}

/-- Row `c` of a [64, 3, 2048] tile, cut out as [64, 1, 2048] and viewed as [64, 2048], reads at `(b, l)` the tile at
    `(b, c, l)`: the view keeps the row-major position, `(b · 1 + 0) · 2048 + l = b · 2048 + l`, and the cut shifts the
    middle coordinate by the row's offset. -/
theorem row_apply (o : ℕ) (x : (⟨3, ![64, 3, 2048]⟩ : Shape).Idx → α)
    (h0 : (⟨3, ![64, 3, 2048]⟩ : Shape).ShapeCasts ⟨3, ![64, 3, 2048]⟩)
    (hS : (⟨3, ![64, 3, 2048]⟩ : Shape).Slices ![0, o, 0] ⟨3, ![64, 1, 2048]⟩)
    (hC : (⟨3, ![64, 1, 2048]⟩ : Shape).ShapeCasts ⟨2, ![64, 2048]⟩)
    (c : Fin 3) (hc : c.val = o) (b : Fin 64) (l : Fin 2048) :
    shapeCast ⟨2, ![64, 2048]⟩ (extractStridedSlice ⟨3, ![64, 1, 2048]⟩ ![0, o, 0]
        (shapeCast ⟨3, ![64, 3, 2048]⟩ x h0) hS) hC (ix2 b l) = x (ix3 b c l) := by
  rw [shapeCast_self]
  refine (shapeCast_apply _ hC (ix2 b l) (ix3 b (0 : Fin 1) l) ?_).trans ?_
  · rw [Shape.rowMajor_val_three, Shape.rowMajor_val_two]
    show (b.val * 1 + 0) * 2048 + l.val = b.val * 2048 + l.val
    omega
  · exact slice3_axis1_apply o x hS b (0 : Fin 1) l c (by show c.val = o + 0; omega)

/-- The 2048 divisors, held as [1, 1, 2048], viewed as one row [1, 2048] and repeated over the 64 batches, read at
    `(b, l)` the divisor of lane `l`. -/
theorem divisor_apply (d : (⟨3, ![1, 1, 2048]⟩ : Shape).Idx → α)
    (h0 : (⟨3, ![1, 1, 2048]⟩ : Shape).ShapeCasts ⟨3, ![1, 1, 2048]⟩)
    (h1 : (⟨3, ![1, 1, 2048]⟩ : Shape).ShapeCasts ⟨2, ![1, 2048]⟩)
    (hB : (⟨2, ![1, 2048]⟩ : Shape).Broadcasts ⟨2, ![64, 2048]⟩) (b : Fin 64) (l : Fin 2048) :
    broadcastTo ⟨2, ![64, 2048]⟩ (shapeCast ⟨2, ![1, 2048]⟩ (shapeCast ⟨3, ![1, 1, 2048]⟩ d h0) h1) hB (ix2 b l)
      = d (ix3 (0 : Fin 1) (0 : Fin 1) l) := by
  rw [shapeCast_self]
  exact (broadcastTo_1b_ab_apply _ hB b l).trans (shapeCast_1ab_ab_apply d h1 (0 : Fin 1) l)

/-- The sum of an `[a, b]` array along its first axis from the zero pattern reads, at column `q`, the sum over `k` of
    the array at `(k, q)`. -/
theorem colSum_zero_apply {a b : ℕ} (src : FVec Ideal ⟨2, ![a, b]⟩ .f32) (hR : (⟨2, ![a, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ src 0x00000000#32 hR hφ hacc (ix1 q) = ∑ k : Fin a, src (ix2 k q) :=
  (Ideal.multiReduction_add_single src _ hR hφ hacc (ix1 q)).trans
    (Finset.sum_congr rfl fun k _ => congrArg src (funext fun e => by match e with | ⟨0, _⟩ => rfl | ⟨1, _⟩ => rfl))

/-- A vector's square root, entry by entry. -/
theorem sqrt_apply {s : Shape} {φ : FTy} (v : FVec Ideal s φ) (i : s.Idx) : sqrt v i = Ideal.sqrt (v i) := rfl

/-- The accumulated value: the old accumulator plus the tile's distances summed over batches and lanes. -/
theorem pay3_apply (x n : Vec Ideal S64x3x2048 .f32) (d : Vec Ideal S1x1x2048 .f32) (a : Vec Ideal S1x1 .f32) (j : S1x1.Idx) :
    k0_pay3 (F := Ideal) x n d a j
      = a j + ∑ b : Fin 64, ∑ l : Fin 2048,
          Cert.MeshLoss.dist (x (ix3 b 0 l)) (x (ix3 b 1 l)) (x (ix3 b 2 l)) (n (ix3 b 0 l)) (n (ix3 b 1 l)) (n (ix3 b 2 l))
            (d (ix3 0 0 l)) := by
  obtain ⟨p, q, rfl⟩ : ∃ (p : Fin 1) (q : Fin 1), j = ix2 p q := ⟨j 0, j 1, eq_ix2 j⟩
  unfold k0_pay3
  rw [addf_apply]
  refine congrArg (a (ix2 p q) + ·) ?_
  -- the [1] result viewed as [1, 1], and the sum of the 64 batch sums
  refine (Cert.Keepdims.shapeCast_a_a1_apply _ shapeCasts_S1_S1x1 p q).trans ?_
  refine (colSum_zero_apply _ reduces_S64x1_S1 _ _ p).trans ?_
  refine Finset.sum_congr rfl fun b _ => ?_
  -- the [64] batch sums viewed as [64, 1], and batch `b`'s sum along the lanes
  refine (Cert.Keepdims.shapeCast_a_a1_apply _ shapeCasts_S64_S64x1 b p).trans ?_
  refine (Cert.RowSumZero.rowSum_zero_apply _ reduces_S64x2048_S64 _ _ b).trans ?_
  refine Finset.sum_congr rfl fun l _ => ?_
  -- the entry at `(b, l)`: the pointwise operations, then each operand read where the tile holds it
  simp only [sqrt_apply, addf_apply, mulf_apply, subf_apply, divf_apply]
  rw [row_apply 0 x _ _ _ 0 rfl b l, row_apply 1 x _ _ _ 1 rfl b l, row_apply 2 x _ _ _ 2 rfl b l,
    row_apply 0 n _ _ _ 0 rfl b l, row_apply 1 n _ _ _ 1 rfl b l, row_apply 2 n _ _ _ 2 rfl b l,
    divisor_apply d _ _ _ b l]
  rfl

/-- The value stored back before the last tile's copy is the accumulator itself: a view at the same shape. -/
theorem pay1_eq (v : Vec Ideal S1x1 .f32) : k0_pay1 (F := Ideal) v = v := by
  unfold k0_pay1
  exact shapeCast_self v _

/-- The value the first tile stores before accumulating is zero. -/
theorem pay2_apply (j : S1x1.Idx) : k0_pay2 (F := Ideal) j = 0 := by
  unfold k0_pay2
  rw [shapeCast_self]
  exact Ideal.ofBits_zero_f32

end Cert.MeshLoss.Tile

end
-- ==== Proof.KernelIdeal.Sum.lean ====
/-
  The last total is the sum, over the 49 points, of the points' partial sums.

  At the ideal instance one step of the body's arithmetic is plain addition on the extended reals: the previous total
  plus the sum, over the tile's 64 × 2048 (batch, vertex) pairs, of the distance from the vertex to its neighbours'
  mean. The first step starts from zero. So after point n the scratch holds the partial sums of points 0, …, n added up.
-/
import proofs.«138574_j73796128080164_1_alg».proof.Proof.KernelIdeal.Total
import proofs.«138574_j73796128080164_1_alg».proof.Proof.Payload

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.MeshLoss Cert.MeshLoss.Tile Idealize.ShloMosaic.ValueIdx

variable (mI : (ℓ : Loc nD τ sig) → Buf (Elt Ideal) ℓ)

/-- The partial sum of point `t`: over the tile's batches `b` and lanes `l`, the distance read off the three blocks. -/
def partialSum (c : Dev nD) (t : Fin cfg0.N) : EReal :=
  ∑ b : Fin 64, ∑ l : Fin 2048,
    dist ((blk mI c 0 t : Vec Ideal S64x3x2048 .f32) (ix3 b 0 l)) ((blk mI c 0 t : Vec Ideal S64x3x2048 .f32) (ix3 b 1 l))
      ((blk mI c 0 t : Vec Ideal S64x3x2048 .f32) (ix3 b 2 l)) ((blk mI c 1 t : Vec Ideal S64x3x2048 .f32) (ix3 b 0 l))
      ((blk mI c 1 t : Vec Ideal S64x3x2048 .f32) (ix3 b 1 l)) ((blk mI c 1 t : Vec Ideal S64x3x2048 .f32) (ix3 b 2 l))
      ((blk mI c 2 t : Vec Ideal S1x1x2048 .f32) (ix3 0 0 l))

/-- The same with the point given by its number (zero past the grid). -/
def partialAt (c : Dev nD) (s : ℕ) : EReal := if h : s < cfg0.N then partialSum mI c ⟨s, h⟩ else 0

/-- After point `n` the scratch holds the partial sums of the points up to `n`, added. -/
theorem totals_sum (c : Dev nD) : ∀ (n : ℕ) (hn : n < cfg0.N) (j : S1x1.Idx),
    totals mI c n hn j = ∑ s ∈ Finset.range (n + 1), partialAt mI c s
  | 0, hn, j => by
    have h := totals_start mI c ⟨0, hn⟩ rfl
    rw [show totals mI c 0 hn = _ from h]
    dsimp only [step]
    rw [pay1_eq, pay3_apply, pay2_apply, zero_add, Finset.sum_range_one]
    unfold partialAt; rw [dif_pos hn]; rfl
  | n + 1, hn, j => by
    have h := totals_step mI c ⟨n + 1, hn⟩ (Nat.succ_ne_zero n)
    rw [show totals mI c (n + 1) hn = _ from h]
    dsimp only [step]
    rw [pay1_eq, pay3_apply, Finset.sum_range_succ]
    refine congrArg₂ (· + ·) (totals_sum c n (Nat.lt_of_succ_lt hn) j) ?_
    unfold partialAt; rw [dif_pos hn]; rfl

/-- What the last point stores into the output block: all 49 partial sums, added. -/
theorem lastOut_sum (c : Dev nD) (j : S1x1.Idx) : lastOut mI c j = ∑ t : Fin cfg0.N, partialSum mI c t := by
  rw [lastOut_eq, totals_sum mI c tLast.val tLast.isLt j]
  rw [show tLast.val + 1 = cfg0.N from by decide, Finset.sum_range]
  refine Finset.sum_congr rfl fun t _ => ?_
  unfold partialAt; rw [dif_pos t.isLt]

end Cert.KernelIdeal.Region

end
-- ==== Proof.KernelIdeal.Result.lean ====
/-
  The region's one number and what the closing host lines make of it.

  The output array has one element and one block; the block is written back once, after the last point, holding what the
  last point stored. So the array ends at that value. The closing lines reshape it to a scalar and divide by the constant.
-/
import proofs.«138574_j73796128080164_1_alg».proof.Proof.KernelIdeal.Total
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- Only the last point writes the output block back. -/
theorem flush_only_last (t : Fin cfg0.N) (hf : (cfg0.win 3).flush t = true) : t = tLast :=
  Fin.ext (by have h := (flush0_3 t).mp hf; have hN : t.val < 49 := lt_of_lt_of_eq t.isLt (show cfg0.N = 49 from N_0); show t.val = 48; omega)

/-- What is written back there is the last point's store: the block is the whole one-element array. -/
theorem written_back (c : Dev nD) (t : Fin cfg0.N) (hf : (cfg0.win 3).flush t = true) :
    (dats m 0 c).flushed 3 t = ((cfg0.win 3).blk t).view.read (Elt F) (lastOut m c) := by
  obtain rfl := flush_only_last t hf
  show (cfg0.win 3).cut (grid0.coords tLast) ((dats m 0 c).after 3 tLast) = _
  rw [after_out]
  have hz : (fun a => win0_3.index tLast a * main_v40.ty.shape.size a) = fun _ => 0 := funext fun a => by fin_cases a <;> decide
  exact (Memref.read_access_unit_zero (Elt F) main_v40 hz (fun a => by rw [congrFun hz a]; simp) (lastOut m c)).symm

/-- So the output array ends at the last point's store. -/
theorem out_final (c : Dev nD) : (dats m 0 c).arrAt 3 cfg0.N = lastOut m c :=
  (dats m 0 c).arrAt_eq_of_cover 3 (lastOut m c) (written_back m c) fun i =>
    ⟨tLast, (flush0_3 tLast).mpr (by decide), by
      show i ∈ ((View.whole main_v40).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The program's result: the last point's store, as a scalar, divided by the constant. -/
theorem result_found (c : Dev nD) :
    Pipeline.afterTail₀ cfgs (dats m) 0 (entry0 m) close c main_v42
      = Host.divf (shapeCast S_ (lastOut m c) shapeCasts_S1x1_S_) (constant (F := F) S_ .f32 0x4AC35000#32) := by
  unfold Pipeline.afterTail₀
  show StableHlo.after hostOps1 _ (Proc.devRef .tc main_v42) = _
  after_results
  rw [(Pipeline.withArrays_arr spec0 launch0.win.arr_inj c _ _ 3).trans (out_final m c)]
  rfl

end Cert.KernelIdeal.Region

end
-- ==== Proof.KernelIdeal.Glue.lean ====
/-
  The values both programs build from the faces, on the kernel's side, at the ideal instance.

  The first and longest stretch of host lines before the region is evaluated in three parts, the values a later part
  reads named at each cut: the two lists of directed edges (from the faces' three columns); from the sources the number
  of neighbours of each vertex, at least one (the divisor `D`); from both lists and the positions `X` the sum of each
  vertex's neighbours' positions (`N`). Operation for operation these are what the reference computes, and they are
  named here by the reference's own stages and never opened.
-/
import proofs.«138574_j73796128080164_1_alg».proof.Proof.KernelIdeal.Run
import proofs.«138574_j73796128080164_1_alg».proof.Proof.Gen.ReferenceIdeal.Read
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

variable (mI : (ℓ : Loc nD τ sig) → Buf (Elt Ideal) ℓ)

/-- Host lines run one after the other: a list in two parts is the second part run from where the first ends. -/
theorem after_two {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, StableHlo.after_cons, ih]

/-! ## The first stretch in three parts -/

/-- The faces' three columns and the two edge lists (8 lines). -/
abbrev edgeOps : List (HloOp τ sig (Elt Ideal)) := (hostOps0 (F := Ideal)).take 8
/-- The neighbour counts, at least one (16 lines). -/
abbrev countOps : List (HloOp τ sig (Elt Ideal)) := ((hostOps0 (F := Ideal)).drop 8).take 16
/-- The neighbours' positions gathered and summed per vertex (21 lines). -/
abbrev sumOps : List (HloOp τ sig (Elt Ideal)) := (hostOps0 (F := Ideal)).drop 24

theorem first_stretch : (hostOps0 (F := Ideal)) = edgeOps ++ (countOps ++ sumOps) :=
  (List.take_append_drop 8 _).symm.trans (congrArg (List.take 8 (hostOps0 (F := Ideal)) ++ ·)
    ((List.take_append_drop 16 _).symm.trans (congrArg (List.take 16 (List.drop 8 (hostOps0 (F := Ideal))) ++ ·)
      (by rw [List.drop_drop]))))

/-- The buffers at launch, -/
def at0 (c : Dev nD) : Valuation τ sig (Elt Ideal) := fun b => mI (c, b)
/-- after the edge lists, -/
def atEdges (c : Dev nD) : Valuation τ sig (Elt Ideal) := StableHlo.after edgeOps (at0 mI c)
/-- after the counts, -/
def atCounts (c : Dev nD) : Valuation τ sig (Elt Ideal) := StableHlo.after countOps (atEdges mI c)
/-- after the sums. -/
def atSums (c : Dev nD) : Valuation τ sig (Elt Ideal) := StableHlo.after sumOps (atCounts mI c)

/-- The faces as launched, and the positions. -/
abbrev faces (c : Dev nD) : IVec S200000x3 32 := mI ((c : Thread nD τ).loc main_arg1)
abbrev positions (c : Dev nD) : FVec Ideal S64x100000x3 .f32 := mI ((c : Thread nD τ).loc main_arg0)

/-! ## The edge lists -/

set_option maxHeartbeats 1000000 in
/-- The list of edge sources is the reference's. -/
theorem sources_found (c : Dev nD) :
    (atEdges mI c (Proc.devRef .tc main_v6) : IVec S1200000 32) = Cert.ReferenceIdeal.Read.val_main_v6 (F := Ideal) (faces mI c) := by
  unfold atEdges at0
  dsimp only [edgeOps, hostOps0, List.take]
  after_results
  rfl

set_option maxHeartbeats 1000000 in
/-- The list of edge targets is the reference's. -/
theorem targets_found (c : Dev nD) :
    (atEdges mI c (Proc.devRef .tc main_v7) : IVec S1200000 32) = Cert.ReferenceIdeal.Read.val_main_v7 (F := Ideal) (faces mI c) := by
  unfold atEdges at0
  dsimp only [edgeOps, hostOps0, List.take]
  after_results
  rfl

set_option maxHeartbeats 1000000 in
/-- The edge lines leave the positions alone. -/
theorem positions_after_edges (c : Dev nD) :
    (atEdges mI c (Proc.devRef .tc main_arg0) : FVec Ideal S64x100000x3 .f32) = positions mI c := by
  unfold atEdges at0
  dsimp only [edgeOps, hostOps0, List.take]
  after_results

/-! ## The divisor -/

set_option maxHeartbeats 2000000 in
/-- The divisor (neighbours counted by scattering ones along the sources, then at least one) is the reference's. -/
theorem divisor_computed (c : Dev nD) :
    (atCounts mI c (Proc.devRef .tc main_v18) : FVec Ideal S100000 .f32) = Cert.ReferenceIdeal.Read.val_main_v18 (F := Ideal) (faces mI c) := by
  unfold atCounts
  dsimp only [countOps, hostOps0, List.take, List.drop]
  after_results_simp
  rw [sources_found]
  rfl

set_option maxHeartbeats 1000000 in
/-- The counting lines leave the sources alone, -/
theorem sources_after_counts (c : Dev nD) : (atCounts mI c (Proc.devRef .tc main_v6) : IVec S1200000 32) = atEdges mI c (Proc.devRef .tc main_v6) := by
  unfold atCounts
  dsimp only [countOps, hostOps0, List.take, List.drop]
  after_results_simp

set_option maxHeartbeats 1000000 in
/-- the targets, -/
theorem targets_after_counts (c : Dev nD) : (atCounts mI c (Proc.devRef .tc main_v7) : IVec S1200000 32) = atEdges mI c (Proc.devRef .tc main_v7) := by
  unfold atCounts
  dsimp only [countOps, hostOps0, List.take, List.drop]
  after_results_simp

set_option maxHeartbeats 1000000 in
/-- and the positions. -/
theorem positions_after_counts (c : Dev nD) : (atCounts mI c (Proc.devRef .tc main_arg0) : FVec Ideal S64x100000x3 .f32) = atEdges mI c (Proc.devRef .tc main_arg0) := by
  unfold atCounts
  dsimp only [countOps, hostOps0, List.take, List.drop]
  after_results_simp

/-! ## The sums of neighbours' positions -/

set_option maxHeartbeats 2000000 in
/-- The sums (the positions gathered along the targets, scattered and added along the sources) are the reference's. -/
theorem sums_computed (c : Dev nD) :
    (atSums mI c (Proc.devRef .tc main_v33) : FVec Ideal S64x100000x3 .f32)
      = Cert.ReferenceIdeal.Read.val_main_v33 (F := Ideal) (positions mI c) (faces mI c) := by
  unfold atSums
  dsimp only [sumOps, hostOps0, List.drop]
  after_results_simp
  rw [sources_after_counts, targets_after_counts, positions_after_counts, sources_found, targets_found, positions_after_edges]
  rfl

set_option maxHeartbeats 1000000 in
/-- The summing lines leave the divisor alone, -/
theorem divisor_after_sums (c : Dev nD) : (atSums mI c (Proc.devRef .tc main_v18) : FVec Ideal S100000 .f32) = atCounts mI c (Proc.devRef .tc main_v18) := by
  unfold atSums
  dsimp only [sumOps, hostOps0, List.take, List.drop]
  after_results_simp

set_option maxHeartbeats 1000000 in
/-- the positions, -/
theorem positions_after_sums (c : Dev nD) : (atSums mI c (Proc.devRef .tc main_arg0) : FVec Ideal S64x100000x3 .f32) = atCounts mI c (Proc.devRef .tc main_arg0) := by
  unfold atSums
  dsimp only [sumOps, hostOps0, List.take, List.drop]
  after_results_simp

set_option maxHeartbeats 1000000 in
/-- and end with the integer zero the paddings convert. -/
theorem zero_after_sums (c : Dev nD) : (atSums mI c (Proc.devRef .tc main_c_8) : IVec S_ 32) = constantI S_ 32 0#32 := by
  unfold atSums
  dsimp only [sumOps, hostOps0, List.drop]
  after_results_simp

end Cert.KernelIdeal.Region

end
-- ==== Proof.KernelIdeal.Stretches.lean ====
/-
  The host lines before the region, run from launch, as the first stretch's three parts followed by the six short
  stretches (the paddings, the transposes, the reshape).
-/
import proofs.«138574_j73796128080164_1_alg».proof.Proof.KernelIdeal.Glue

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

variable (mI : (ℓ : Loc nD τ sig) → Buf (Elt Ideal) ℓ)

/-- The first stretch, run from launch, in its three parts. -/
theorem first_stretch_run (c : Dev nD) :
    StableHlo.after (hostOps0 (F := Ideal)) (fun b => mI (c, b))
      = StableHlo.after sumOps (StableHlo.after countOps (StableHlo.after edgeOps (fun b => mI (c, b)))) :=
  (congrArg (fun l => StableHlo.after l (fun b => mI (c, b))) first_stretch).trans ((after_two _ _ _).trans (after_two _ _ _))

theorem atSums_eq (c : Dev nD) :
    atSums mI c = StableHlo.after sumOps (StableHlo.after countOps (StableHlo.after edgeOps (fun b => mI (c, b)))) := by
  unfold atSums atCounts atEdges at0; rfl

theorem lead_flat : List.flatten (lead (F := Ideal))
    = hostOps0 ++ (hostOps0_1 ++ (hostOps0_2 ++ (hostOps0_3 ++ (hostOps0_4 ++ (hostOps0_5 ++ hostOps0_6))))) := by
  simp only [lead, List.flatten_cons, List.flatten_nil, List.append_nil]

/-- The region is entered after the first stretch's three parts and the six short stretches. -/
theorem entry_by_stretches (c : Dev nD) :
    entry0 mI c = StableHlo.after hostOps0_6 (StableHlo.after hostOps0_5 (StableHlo.after hostOps0_4 (StableHlo.after hostOps0_3
      (StableHlo.after hostOps0_2 (StableHlo.after hostOps0_1 (atSums mI c)))))) := by
  show StableHlo.after (List.flatten lead) (fun b => mI (c, b)) = _
  rw [lead_flat, after_two, after_two, after_two, after_two, after_two, after_two, first_stretch_run, ← atSums_eq]

end Cert.KernelIdeal.Region

end
-- ==== Proof.KernelIdeal.Arrays.lean ====
/-
  What the three input arrays of the region hold when it is entered, at the ideal instance: the positions and the sums of
  neighbours' positions padded along the vertex axis with the integer zero converted and laid out with the vertex axis
  last, [64, 3, 100352]; the divisor padded with one, as [1, 1, 100352].

  The six short stretches (three paddings, two transposes, a reshape) are first read from an ARBITRARY starting contents
  `W` of the buffers: each of the three arrays is a padding and a change of layout of one buffer of `W`. Then `W` is
  taken to be the contents after the first stretch, where those buffers hold the positions, the sums and the divisor.
-/
import proofs.«138574_j73796128080164_1_alg».proof.Proof.KernelIdeal.Stretches

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

variable (mI : (ℓ : Loc nD τ sig) → Buf (Elt Ideal) ℓ)

section FromAnyContents

variable (W : Valuation τ sig (Elt Ideal))

set_option maxHeartbeats 1000000 in
theorem padded_positions :
    (StableHlo.after hostOps0_6 (StableHlo.after hostOps0_5 (StableHlo.after hostOps0_4 (StableHlo.after hostOps0_3
      (StableHlo.after hostOps0_2 (StableHlo.after hostOps0_1 W))))) (Proc.devRef .tc main_v37) : S64x3x100352.Idx → EReal)
      = transpose S64x3x100352 [0, 2, 1] (pad S64x100352x3 ![0, 0, 0] ![0, 352, 0] ![0, 0, 0]
          (W (Proc.devRef .tc main_arg0) : FVec Ideal S64x100000x3 .f32)
          (sitofp (F := Ideal) .f32 (W (Proc.devRef .tc main_c_8) : IVec S_ 32)) pads_S64x100000x3_S64x100352x3_000_03520_000 h_S_) transposes_S64x100352x3_S64x3x100352_0_2_1 := by
  dsimp only [hostOps0_1, hostOps0_2, hostOps0_3, hostOps0_4, hostOps0_5, hostOps0_6]
  after_results
  rfl

set_option maxHeartbeats 1000000 in
theorem padded_sums :
    (StableHlo.after hostOps0_6 (StableHlo.after hostOps0_5 (StableHlo.after hostOps0_4 (StableHlo.after hostOps0_3
      (StableHlo.after hostOps0_2 (StableHlo.after hostOps0_1 W))))) (Proc.devRef .tc main_v38) : S64x3x100352.Idx → EReal)
      = transpose S64x3x100352 [0, 2, 1] (pad S64x100352x3 ![0, 0, 0] ![0, 352, 0] ![0, 0, 0]
          (W (Proc.devRef .tc main_v33) : FVec Ideal S64x100000x3 .f32)
          (sitofp (F := Ideal) .f32 (constantI S_ 32 0#32)) pads_S64x100000x3_S64x100352x3_000_03520_000 h_S_) transposes_S64x100352x3_S64x3x100352_0_2_1 := by
  dsimp only [hostOps0_1, hostOps0_2, hostOps0_3, hostOps0_4, hostOps0_5, hostOps0_6]
  after_results
  rfl

set_option maxHeartbeats 1000000 in
theorem padded_divisor :
    (StableHlo.after hostOps0_6 (StableHlo.after hostOps0_5 (StableHlo.after hostOps0_4 (StableHlo.after hostOps0_3
      (StableHlo.after hostOps0_2 (StableHlo.after hostOps0_1 W))))) (Proc.devRef .tc main_v39) : S1x1x100352.Idx → EReal)
      = shapeCast S1x1x100352 (pad S100352 ![0] ![352] ![0] (W (Proc.devRef .tc main_v18) : FVec Ideal S100000 .f32)
          (constant (F := Ideal) S_ .f32 0x3F800000#32) pads_S100000_S100352_03520 h_S_) shapeCasts_S100352_S1x1x100352 := by
  dsimp only [hostOps0_1, hostOps0_2, hostOps0_3, hostOps0_4, hostOps0_5, hostOps0_6]
  after_results
  rfl

end FromAnyContents

/-- The positions, padded with the integer zero converted, vertex axis last. -/
theorem positions_found (c : Dev nD) :
    (entry mI c main_v37 : S64x3x100352.Idx → EReal)
      = transpose S64x3x100352 [0, 2, 1] (pad S64x100352x3 ![0, 0, 0] ![0, 352, 0] ![0, 0, 0] (positions mI c)
          (sitofp (F := Ideal) .f32 (constantI S_ 32 0#32)) pads_S64x100000x3_S64x100352x3_000_03520_000 h_S_) transposes_S64x100352x3_S64x3x100352_0_2_1 := by
  unfold entry; rw [entry_by_stretches, padded_positions, positions_after_sums, positions_after_counts, positions_after_edges, zero_after_sums]

/-- The sums, padded likewise, vertex axis last. -/
theorem sums_found (c : Dev nD) :
    (entry mI c main_v38 : S64x3x100352.Idx → EReal)
      = transpose S64x3x100352 [0, 2, 1] (pad S64x100352x3 ![0, 0, 0] ![0, 352, 0] ![0, 0, 0]
          (Cert.ReferenceIdeal.Read.val_main_v33 (F := Ideal) (positions mI c) (faces mI c))
          (sitofp (F := Ideal) .f32 (constantI S_ 32 0#32)) pads_S64x100000x3_S64x100352x3_000_03520_000 h_S_) transposes_S64x100352x3_S64x3x100352_0_2_1 := by
  unfold entry; rw [entry_by_stretches, padded_sums, sums_computed]

/-- The divisor, padded with one, as a [1, 1, 100352] array. -/
theorem divisor_found (c : Dev nD) :
    (entry mI c main_v39 : S1x1x100352.Idx → EReal)
      = shapeCast S1x1x100352 (pad S100352 ![0] ![352] ![0] (Cert.ReferenceIdeal.Read.val_main_v18 (F := Ideal) (faces mI c))
          (constant (F := Ideal) S_ .f32 0x3F800000#32) pads_S100000_S100352_03520 h_S_) shapeCasts_S100352_S1x1x100352 := by
  unfold entry; rw [entry_by_stretches, padded_divisor, divisor_after_sums, divisor_computed]

end Cert.KernelIdeal.Region

end
-- ==== Proof.KernelIdeal.BlockRead.lean ====
/-
  A block's element is the array's element at the tile's offset.

  The grid has 49 points. At point `t` the windows on the positions and on the neighbour sums, arrays [64, 3, 100352],
  hold the block [64, 3, 2048] at block index (0, 0, t), and the window on the divisor, an array [1, 1, 100352], holds the
  block [1, 1, 2048] at block index (0, 0, t). An element of a block sits in its array, on each axis, at the block index
  times the block's size plus its own coordinate: batch and coordinate unchanged, lane `l` at vertex position
  `t · 2048 + l`.
-/
import proofs.«138574_j73796128080164_1_alg».proof.Proof.KernelIdeal.Run
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Lane `l` of tile `t` is a position of the padded vertex axis: `t ≤ 48` and `l ≤ 2047` give at most
    `48 · 2048 + 2047 = 100351`. -/
theorem tile_lt (t : Fin cfg0.N) (l : Fin 2048) : t.val * 2048 + l.val < 100352 := by
  have ht : t.val < 49 := Nat.lt_of_lt_of_eq t.isLt N_0
  have hl : l.val < 2048 := l.isLt
  omega

/-- The block index of the positions' window at point `t` is (0, 0, t). -/
theorem index_positions : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)

/-- The block index of the neighbour sums' window at point `t` is (0, 0, t). -/
theorem index_sums : ∀ t : Fin cfg0.N, win0_1.index t 0 = 0 ∧ win0_1.index t 1 = 0 ∧ win0_1.index t 2 = t.val :=
  (by decide +kernel : ∀ t : Fin grid0.N, win0_1.index t 0 = 0 ∧ win0_1.index t 1 = 0 ∧ win0_1.index t 2 = t.val)

/-- The block index of the divisor's window at point `t` is (0, 0, t). -/
theorem index_divisor : ∀ t : Fin cfg0.N, win0_2.index t 0 = 0 ∧ win0_2.index t 1 = 0 ∧ win0_2.index t 2 = t.val :=
  (by decide +kernel : ∀ t : Fin grid0.N, win0_2.index t 0 = 0 ∧ win0_2.index t 1 = 0 ∧ win0_2.index t 2 = t.val)

/-- The positions' block at point `t` reads, at `(b, k, l)`, the padded positions at `(b, k, t · 2048 + l)`. -/
theorem blk_positions (c : Dev nD) (t : Fin cfg0.N) (b : Fin 64) (k : Fin 3) (l : Fin 2048) :
    (blk m c 0 t : Vec F S64x3x2048 .f32) (ix3 b k l)
      = (entry m c main_v37 : S64x3x100352.Idx → Elt F .f32) (ix3 b k ⟨t.val * 2048 + l.val, tile_lt t l⟩) := by
  obtain ⟨h0, h1, h2⟩ := index_positions t
  unfold blk
  rw [View.read_apply]
  show (entry m c main_v37 : S64x3x100352.Idx → Elt F .f32) _ = (entry m c main_v37 : S64x3x100352.Idx → Elt F .f32) _
  refine congrArg (entry m c main_v37 : S64x3x100352.Idx → Elt F .f32) (funext fun a => Fin.ext ?_)
  match a with
  | ⟨0, _⟩ => show win0_0.index t 0 * 64 + 1 * b.val = b.val; rw [h0]; omega
  | ⟨1, _⟩ => show win0_0.index t 1 * 3 + 1 * k.val = k.val; rw [h1]; omega
  | ⟨2, _⟩ => show win0_0.index t 2 * 2048 + 1 * l.val = t.val * 2048 + l.val; rw [h2]; omega

/-- The neighbour sums' block at point `t` reads, at `(b, k, l)`, the padded sums at `(b, k, t · 2048 + l)`. -/
theorem blk_sums (c : Dev nD) (t : Fin cfg0.N) (b : Fin 64) (k : Fin 3) (l : Fin 2048) :
    (blk m c 1 t : Vec F S64x3x2048 .f32) (ix3 b k l)
      = (entry m c main_v38 : S64x3x100352.Idx → Elt F .f32) (ix3 b k ⟨t.val * 2048 + l.val, tile_lt t l⟩) := by
  obtain ⟨h0, h1, h2⟩ := index_sums t
  unfold blk
  rw [View.read_apply]
  show (entry m c main_v38 : S64x3x100352.Idx → Elt F .f32) _ = (entry m c main_v38 : S64x3x100352.Idx → Elt F .f32) _
  refine congrArg (entry m c main_v38 : S64x3x100352.Idx → Elt F .f32) (funext fun a => Fin.ext ?_)
  match a with
  | ⟨0, _⟩ => show win0_1.index t 0 * 64 + 1 * b.val = b.val; rw [h0]; omega
  | ⟨1, _⟩ => show win0_1.index t 1 * 3 + 1 * k.val = k.val; rw [h1]; omega
  | ⟨2, _⟩ => show win0_1.index t 2 * 2048 + 1 * l.val = t.val * 2048 + l.val; rw [h2]; omega

/-- The divisor's block at point `t` reads, at `(0, 0, l)`, the padded divisor at `(0, 0, t · 2048 + l)`. -/
theorem blk_divisor (c : Dev nD) (t : Fin cfg0.N) (l : Fin 2048) :
    (blk m c 2 t : Vec F S1x1x2048 .f32) (ix3 (0 : Fin 1) (0 : Fin 1) l)
      = (entry m c main_v39 : S1x1x100352.Idx → Elt F .f32)
          (ix3 (0 : Fin 1) (0 : Fin 1) ⟨t.val * 2048 + l.val, tile_lt t l⟩) := by
  obtain ⟨h0, h1, h2⟩ := index_divisor t
  unfold blk
  rw [View.read_apply]
  show (entry m c main_v39 : S1x1x100352.Idx → Elt F .f32) _ = (entry m c main_v39 : S1x1x100352.Idx → Elt F .f32) _
  refine congrArg (entry m c main_v39 : S1x1x100352.Idx → Elt F .f32) (funext fun a => Fin.ext ?_)
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 2048 + 1 * l.val = t.val * 2048 + l.val; rw [h2]; omega

end Cert.KernelIdeal.Region

end
-- ==== Proof.PadLayout.lean ====
/-
  The padded, re-laid arrays the kernel's tiles are cut from, read at coordinates.

  The vertex axis, 100000 long, is continued to 100352 = 49 · 2048 positions with one padding value. For the positions and
  the neighbour sums, [64, 100000, 3], the vertex axis is then put last: the [64, 3, 100352] array reads at
  `(b, k, v)` the original at `(b, v, k)` when `v` is a vertex and the padding value when it is past the last one. For
  the divisor, [100000], the padded row is viewed as [1, 1, 100352]: at `(0, 0, v)` the original at `v`, or the padding
  value. The padding value of positions and sums is the integer 0 converted, which is 0; that of the divisor is the
  pattern of 1.
-/
import proofs.«138574_j73796128080164_1_alg».proof.Proof.Gen.KernelIdeal
import Idealize.ShloMosaic.Lib.KernelVsHost
import Idealize.ShloMosaic.Lib.ValueLayout

noncomputable section

namespace Cert.MeshLoss.Padded

open Cert.KernelIdeal Idealize.ShloMosaic Idealize.ShloMosaic.ValueIdx

/-- Positions or neighbour sums padded along the vertex axis and the vertex axis put last: at `(b, k, v)` the
    original at `(b, v, k)` below 100000, the padding value from there on. The transpose exchanges the last two
    coordinates; the padding has no low part and no interior, so a coordinate below the original extent is inside the
    operand at itself, and one at or past it is outside. -/
theorem padT_apply {α : Type} (X : S64x100000x3.Idx → α) (z : S_.Idx → α)
    (hp : S64x100000x3.Pads (![0, 0, 0] : Fin 3 → Nat) ![0, 352, 0] ![0, 0, 0] S64x100352x3) (hs : 0 < S_.numel)
    (ht : S64x100352x3.Transposes [0, 2, 1] S64x3x100352) (b : Fin 64) (k : Fin 3) (v : Fin 100352) :
    transpose S64x3x100352 [0, 2, 1] (pad S64x100352x3 ![0, 0, 0] ![0, 352, 0] ![0, 0, 0] X z hp hs) ht (ix3 b k v)
      = if h : v.val < 100000 then X (ix3 b ⟨v.val, h⟩ k) else z ix0 := by
  refine (transpose_ix3_021_apply _ ht b k v).trans ?_
  by_cases h : v.val < 100000
  · rw [dif_pos h]
    exact pad_apply_of_inside _ _ _ X z hp hs _ (ix3 b (⟨v.val, h⟩ : Fin 100000) k) (fun a => by
      match a with
      | ⟨0, _⟩ => show b.val = 0 + b.val * (0 + 1); omega
      | ⟨1, _⟩ => show v.val = 0 + v.val * (0 + 1); omega
      | ⟨2, _⟩ => show k.val = 0 + k.val * (0 + 1); omega)
  · rw [dif_neg h]
    refine (pad_apply_of_not_inside _ _ _ X z hp hs _ (1 : Fin 3) (fun hin => ?_)).trans (congrArg z (eq_ix0 _))
    have e : (v.val - 0) / (0 + 1) < 100000 := hin.2.2
    rw [Nat.sub_zero, Nat.zero_add, Nat.div_one] at e
    exact h e

/-- The divisor padded and viewed as [1, 1, 100352]: at `(0, 0, v)` the original at `v` below 100000, the padding
    value from there on. The view keeps the row-major position, `(0 · 1 + 0) · 100352 + v = v`. -/
theorem padR_apply {α : Type} (D : S100000.Idx → α) (z : S_.Idx → α)
    (hp : S100000.Pads (![0] : Fin 1 → Nat) ![352] ![0] S100352) (hs : 0 < S_.numel)
    (hc : S100352.ShapeCasts S1x1x100352) (v : Fin 100352) :
    shapeCast S1x1x100352 (pad S100352 ![0] ![352] ![0] D z hp hs) hc (ix3 (0 : Fin 1) (0 : Fin 1) v)
      = if h : v.val < 100000 then D (ix1 ⟨v.val, h⟩) else z ix0 := by
  refine (shapeCast_apply _ hc (ix3 (0 : Fin 1) (0 : Fin 1) v) (ix1 v) ?_).trans ?_
  · rw [Shape.rowMajor_val_one, Shape.rowMajor_val_three]
    show v.val = (0 * 1 + 0) * 100352 + v.val
    omega
  by_cases h : v.val < 100000
  · rw [dif_pos h]
    exact pad_apply_of_inside _ _ _ D z hp hs _ (ix1 (⟨v.val, h⟩ : Fin 100000)) (fun a => by
      match a with
      | ⟨0, _⟩ => show v.val = 0 + v.val * (0 + 1); omega)
  · rw [dif_neg h]
    refine (pad_apply_of_not_inside _ _ _ D z hp hs _ (0 : Fin 1) (fun hin => ?_)).trans (congrArg z (eq_ix0 _))
    have e : (v.val - 0) / (0 + 1) < 100000 := hin.2.2
    rw [Nat.sub_zero, Nat.zero_add, Nat.div_one] at e
    exact h e

/-- The padding value of positions and neighbour sums: the integer 0 converted to a float is 0. -/
theorem pad_zero : (sitofp .f32 (constantI S_ 32 0#32) : FVec Ideal S_ .f32) ix0 = 0 := by
  show (((0#32 : BitVec 32).toInt : ℝ) : EReal) = 0
  simp

/-- The padding value of the divisor: the pattern of 1 — sign 0, exponent 127, fraction 0, so 2²³ · 2⁻²³ — is 1. -/
theorem pad_one : (constant (F := Ideal) S_ .f32 0x3F800000#32) ix0 = 1 := by
  show Ideal.ofBits .f32 0x3F800000#32 = 1
  simp [Ideal.ofBits, Ideal.ieee]
  rw [← EReal.coe_mul]
  norm_num

end Cert.MeshLoss.Padded

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.SpecLaws.lean ====
/-
  Laws of the mesh loss that both programs' arrangements rest on.

  The vertex axis, 100000 long, is continued by zero to 100352 = 49 · 2048 positions and cut into 49 tiles of 2048.
  A position past the last vertex contributes the distance of a point at the origin to the mean 0 / 1 = 0 of
  nothing, which is √0 = 0; so the sum over the tiles, each tile summed over its 64 batches and 2048 positions, is
  the sum over batches and vertices. Only associativity and commutativity of the addition of extended reals and
  0 + x = x are used, so the laws hold at the infinities too.
-/
import proofs.«138574_j73796128080164_1_alg».proof.Proof.Spec
import proofs.«138574_j73796128080164_1_alg».proof.Proof.LibSumBlocks

noncomputable section

namespace Cert.MeshLoss

open Idealize.ShloMosaic Idealize.ShloMosaic.ValueIdx

/-- The distance at position `v` of the vertex axis continued past its end: the vertex's distance below 100000,
    zero from there on. -/
def padDist (X N : SPos.Idx → EReal) (D : SVert.Idx → EReal) (b : Fin 64) (v : ℕ) : EReal :=
  if h : v < 100000 then distAt X N D b ⟨v, h⟩ else 0

/-- At a vertex the continuation is the vertex's distance. -/
theorem padDist_of_lt (X N : SPos.Idx → EReal) (D : SVert.Idx → EReal) (b : Fin 64) (v : ℕ) (h : v < 100000) :
    padDist X N D b v = distAt X N D b ⟨v, h⟩ := dif_pos h

/-- Past the last vertex the continuation is zero. -/
theorem padDist_of_ge (X N : SPos.Idx → EReal) (D : SVert.Idx → EReal) (b : Fin 64) (v : ℕ) (h : 100000 ≤ v) :
    padDist X N D b v = 0 := dif_neg (Nat.not_lt.mpr h)

/-- Zero divided by one is zero. -/
theorem div_zero_one : Ideal.div 0 1 = 0 := by
  rw [Ideal.div, if_neg one_ne_zero, zero_mul]

/-- The square root of zero is zero. -/
theorem sqrt_zero : Ideal.sqrt 0 = 0 := by
  rw [← EReal.coe_zero, Ideal.sqrt_coe, if_neg (lt_irrefl 0), Real.sqrt_zero]

/-- A padded position: a point at the origin, neighbour sum zero, divisor one. Its mean of neighbours is 0 / 1 = 0,
    each coordinate's square (0 - 0) · (0 - 0) = 0, their sum 0, and the distance √0 = 0. -/
theorem dist_pad : dist 0 0 0 0 0 0 1 = 0 := by
  have hs : sq 0 0 1 = 0 := by
    unfold sq
    rw [div_zero_one, sub_zero, mul_zero]
  unfold dist
  rw [hs, add_zero, add_zero, sqrt_zero]

/-- A function of the naturals that vanishes from `n` on, summed over `a` consecutive tiles of `b` positions that
    reach at least to `n`, has the sum of its first `n` values: the tiles regroup the first `a * b` positions, and the
    positions from `n` on add zero. -/
theorem sum_tiles_of_zero_tail {β : Type*} [AddCommMonoid β] (g : ℕ → β) (a b n : ℕ) (hn : n ≤ a * b)
    (hz : ∀ k, n ≤ k → g k = 0) :
    ∑ t : Fin a, ∑ l : Fin b, g (t.val * b + l.val) = ∑ v : Fin n, g v.val := by
  have h1 : ∑ t : Fin a, ∑ l : Fin b, g (t.val * b + l.val)
      = ∑ s ∈ Finset.range a, ∑ q ∈ Finset.range b, g (s * b + q) := by
    rw [Fin.sum_univ_eq_sum_range (fun s => ∑ l : Fin b, g (s * b + l.val)) a]
    exact Finset.sum_congr rfl fun s _ => Fin.sum_univ_eq_sum_range (fun q => g (s * b + q)) b
  obtain ⟨m, hm⟩ := Nat.exists_eq_add_of_le hn
  rw [h1, ← Cert.Lib.SumBlocks.sum_range_blocks, hm, Finset.sum_range_add,
    Finset.sum_eq_zero (fun k _ => hz (n + k) (Nat.le_add_right n k)), add_zero,
    Fin.sum_univ_eq_sum_range g n]

/-- The distances summed tile by tile — 49 tiles of 2048 positions of the continued vertex axis, each tile over its
    64 batches — are the distances summed over batches and vertices. -/
theorem total_by_tiles (X N : SPos.Idx → EReal) (D : SVert.Idx → EReal) :
    (∑ t : Fin 49, ∑ b : Fin 64, ∑ l : Fin 2048, padDist X N D b (t.val * 2048 + l.val)) = total X N D := by
  unfold total
  rw [Finset.sum_comm]
  refine Finset.sum_congr rfl fun b _ => ?_
  refine (sum_tiles_of_zero_tail (padDist X N D b) 49 2048 100000 (by norm_num)
    (fun k hk => padDist_of_ge X N D b k hk)).trans ?_
  exact Finset.sum_congr rfl fun v _ => padDist_of_lt X N D b v.val v.isLt

/-- A sum of three terms accumulated from zero, in the order the terms are added. -/
theorem sum3 (f : Fin 3 → EReal) : (0 : EReal) + ∑ c : Fin 3, f c = (f 0 + f 1) + f 2 := by
  rw [zero_add, Fin.sum_univ_three]

end Cert.MeshLoss

end
-- ==== Proof.KernelIdeal.Loss.lean ====
/-
  The program's result is the loss.

  An entry of a block is the padded, transposed array's entry at the tile's offset; that array's entry is the positions'
  (the sums', the divisor's) entry where the vertex exists, and the padding — zero, zero, one — past the last vertex. So
  the distance read off the blocks at lane `l` of point `t` is the distance of vertex `t · 2048 + l` where it exists
  and √0 = 0 past the end; the 49 partial sums add up to the sum over all batches and vertices; and the closing division
  makes the mean.
-/
import proofs.«138574_j73796128080164_1_alg».proof.Proof.KernelIdeal.Sum
import proofs.«138574_j73796128080164_1_alg».proof.Proof.KernelIdeal.Result
import proofs.«138574_j73796128080164_1_alg».proof.Proof.KernelIdeal.Arrays
import proofs.«138574_j73796128080164_1_alg».proof.Proof.KernelIdeal.BlockRead
import proofs.«138574_j73796128080164_1_alg».proof.Proof.PadLayout
import proofs.«138574_j73796128080164_1_alg».proof.Proof.SpecLaws

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.MeshLoss Cert.MeshLoss.Tile Cert.MeshLoss.Padded Idealize.ShloMosaic.ValueIdx

variable (mI : (ℓ : Loc nD τ sig) → Buf (Elt Ideal) ℓ)

/-- The sums of neighbours' positions and the divisor, as the reference's stages name them. -/
abbrev nbrSums (c : Dev nD) : FVec Ideal S64x100000x3 .f32 := Cert.ReferenceIdeal.Read.val_main_v33 (F := Ideal) (positions mI c) (faces mI c)
abbrev divisor (c : Dev nD) : FVec Ideal S100000 .f32 := Cert.ReferenceIdeal.Read.val_main_v18 (F := Ideal) (faces mI c)

/-- The distance over entries that are the arrays' where the vertex exists and the padding (0, 0, 1) where it does not is
    the distance extended by zero. -/
theorem dist_padded (X N : SPos.Idx → EReal) (D : SVert.Idx → EReal) (b : Fin 64) (v : Fin 100352) :
    dist (if h : v.val < 100000 then X (ix3 b ⟨v.val, h⟩ 0) else 0) (if h : v.val < 100000 then X (ix3 b ⟨v.val, h⟩ 1) else 0)
        (if h : v.val < 100000 then X (ix3 b ⟨v.val, h⟩ 2) else 0) (if h : v.val < 100000 then N (ix3 b ⟨v.val, h⟩ 0) else 0)
        (if h : v.val < 100000 then N (ix3 b ⟨v.val, h⟩ 1) else 0) (if h : v.val < 100000 then N (ix3 b ⟨v.val, h⟩ 2) else 0)
        (if h : v.val < 100000 then D (ix1 ⟨v.val, h⟩) else 1)
      = padDist X N D b v.val := by
  by_cases h : v.val < 100000
  · simp only [dif_pos h]; exact (padDist_of_lt X N D b v.val h).symm
  · simp only [dif_neg h]; exact dist_pad.trans (padDist_of_ge X N D b v.val (not_lt.mp h)).symm

/-- One entry of a tile: lane `l` of point `t` is vertex `t · 2048 + l`. -/
theorem tile_entry (c : Dev nD) (t : Fin cfg0.N) (b : Fin 64) (l : Fin 2048) :
    dist ((blk mI c 0 t : Vec Ideal S64x3x2048 .f32) (ix3 b 0 l)) ((blk mI c 0 t : Vec Ideal S64x3x2048 .f32) (ix3 b 1 l))
      ((blk mI c 0 t : Vec Ideal S64x3x2048 .f32) (ix3 b 2 l)) ((blk mI c 1 t : Vec Ideal S64x3x2048 .f32) (ix3 b 0 l))
      ((blk mI c 1 t : Vec Ideal S64x3x2048 .f32) (ix3 b 1 l)) ((blk mI c 1 t : Vec Ideal S64x3x2048 .f32) (ix3 b 2 l))
      ((blk mI c 2 t : Vec Ideal S1x1x2048 .f32) (ix3 0 0 l))
      = padDist (positions mI c) (nbrSums mI c) (divisor mI c) b (t.val * 2048 + l.val) := by
  rw [blk_positions mI c t b 0 l, blk_positions mI c t b 1 l, blk_positions mI c t b 2 l, blk_sums mI c t b 0 l,
    blk_sums mI c t b 1 l, blk_sums mI c t b 2 l, blk_divisor mI c t l, positions_found, sums_found, divisor_found]
  rw [padT_apply, padT_apply, padT_apply, padT_apply, padT_apply, padT_apply, padR_apply, pad_zero, pad_one]
  exact dist_padded (positions mI c) (nbrSums mI c) (divisor mI c) b ⟨t.val * 2048 + l.val, tile_lt t l⟩

/-- A point's partial sum, over the vertices of its tile. -/
theorem partialSum_eq (c : Dev nD) (t : Fin cfg0.N) :
    partialSum mI c t = ∑ b : Fin 64, ∑ l : Fin 2048, padDist (positions mI c) (nbrSums mI c) (divisor mI c) b (t.val * 2048 + l.val) := by
  unfold partialSum
  exact Finset.sum_congr rfl fun b _ => Finset.sum_congr rfl fun l _ => tile_entry mI c t b l

theorem sum_fin_eq {β : Type} [AddCommMonoid β] (g : ℕ → β) {a b : ℕ} (h : a = b) : ∑ t : Fin a, g t.val = ∑ t : Fin b, g t.val := by
  subst h; rfl

/-- What the last point stores is the sum of the distances over all batches and vertices. -/
theorem out_total (c : Dev nD) (j : S1x1.Idx) : lastOut mI c j = total (positions mI c) (nbrSums mI c) (divisor mI c) := by
  rw [lastOut_sum]
  refine (Finset.sum_congr rfl fun t _ => partialSum_eq mI c t).trans ?_
  refine (sum_fin_eq (fun s => ∑ b : Fin 64, ∑ l : Fin 2048, padDist (positions mI c) (nbrSums mI c) (divisor mI c) b (s * 2048 + l.val)) (show cfg0.N = 49 from N_0)).trans ?_
  exact total_by_tiles _ _ _

/-- The program's result is the loss of the positions, the neighbours' sums and the divisor. -/
theorem result_is_loss (c : Dev nD) :
    Pipeline.afterTail₀ cfgs (dats mI) 0 (entry0 mI) close c main_v42 = loss (positions mI c) (nbrSums mI c) (divisor mI c) := by
  rw [result_found]
  funext i
  show Ideal.div (shapeCast S_ (lastOut mI c) shapeCasts_S1x1_S_ i) (Ideal.ofBits .f32 0x4AC35000#32)
    = Ideal.div (total (positions mI c) (nbrSums mI c) (divisor mI c)) (Ideal.ofBits .f32 0x4AC35000#32)
  unfold shapeCast
  rw [out_total]

/-- THE RUN, READ: the program terminates with its result at the loss and both arguments as launched. -/
theorem run_loss (ρ : Dev nD → PrngReg) :
    θ_run defs (onTc (τ := τ) (main (F := Ideal))) ⟨mI, fun _ => 0, ρ⟩ (fun r => ∀ c : Dev nD,
      r.2.mem ((c.tc : Thread nD τ).loc main_v42) = loss (positions mI c) (nbrSums mI c) (divisor mI c)
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun r h c =>
    ⟨((h c).2 main_v42 (Pipeline.mem_restRefs_of main_v42 (by decide) (by decide))).trans (result_is_loss mI c),
      arguments_kept mI (dats mI) r h c⟩) (run_main mI ρ)

end Cert.KernelIdeal.Region

end
-- ==== Proof.RefValue.lean ====
/-
  The reference computes the mesh loss.

  Read stage by stage from its last operation down to the two arrays it shares with the kernel's program — the
  neighbour sums (a scatter of a gather) and the divisor (the neighbour count, at least one) — the reference's
  result is: per coordinate, the position less the neighbour sum over the divisor, squared; the three squares of a
  vertex added from zero in the order of the coordinates; the square root of that; those roots added over all batches
  and vertices from zero; and the total divided by 6400000. That is the loss of the specification at the positions,
  those neighbour sums and that divisor. The two shared arrays are never opened.
-/
import proofs.«138574_j73796128080164_1_alg».proof.Proof.Gen.ReferenceIdeal.Read
import proofs.«138574_j73796128080164_1_alg».proof.Proof.SpecLaws

noncomputable section

namespace Cert.ReferenceIdeal.RefValue

open Cert.ReferenceIdeal Cert.ReferenceIdeal.Gen Cert.ReferenceIdeal.Read Idealize.ShloMosaic Idealize.ShloMosaic.ValueIdx
  Cert.MeshLoss

/-- The divisor is broadcast along batches and coordinates: at `(b, v, c)` it is read at vertex `v`. -/
theorem divisor_idx (b : Fin 64) (v : Fin 100000) (c : Fin 3) :
    idx_main_v34 (idx_main_v35 (ix3 b v c)) = ix1 v :=
  funext fun a => Fin.ext (by match a with | ⟨0, _⟩ => rfl)

/-- The sum over coordinates at `(b, v)` reads its operand at `(b, v, c)`. -/
theorem coord_idx (b : Fin 64) (v : Fin 100000) (c : Fin 3) :
    idx_main_v39 (ix2 b v) c = ix3 b v c :=
  funext fun a => Fin.ext (by match a with | ⟨0, _⟩ => rfl | ⟨1, _⟩ => rfl | ⟨2, _⟩ => rfl)

/-- One coordinate's square at `(b, v, c)`: the position less the neighbour sum over the vertex's divisor, squared. -/
theorem sq_at (x0 : (⟨S64x100000x3, .f32⟩ : BufTy).Contents (Elt Ideal)) (x1 : (⟨S200000x3, .i32⟩ : BufTy).Contents (Elt Ideal))
    (b : Fin 64) (v : Fin 100000) (c : Fin 3) :
    val_main_v38 (F := Ideal) x0 x1 (ix3 b v c)
      = sq (x0 (ix3 b v c)) (val_main_v33 (F := Ideal) x0 x1 (ix3 b v c)) (val_main_v18 (F := Ideal) x1 (ix1 v)) := by
  rw [val_main_v38_apply, val_main_v37_apply, val_main_v36_apply, val_main_v35_apply, val_main_v34_apply, divisor_idx]
  rfl

/-- The root at `(b, v)`: the three squares added from zero in the order of the coordinates, then the square root —
    the distance from vertex `v` of batch `b` to the mean of its neighbours. -/
theorem dist_at (x0 : (⟨S64x100000x3, .f32⟩ : BufTy).Contents (Elt Ideal)) (x1 : (⟨S200000x3, .i32⟩ : BufTy).Contents (Elt Ideal))
    (b : Fin 64) (v : Fin 100000) :
    val_main_v40 (F := Ideal) x0 x1 (ix2 b v)
      = distAt x0 (val_main_v33 (F := Ideal) x0 x1) (val_main_v18 (F := Ideal) x1) b v := by
  rw [val_main_v40_apply, val_main_v39_apply, val_main_cst_8_apply]
  simp only [coord_idx, sq_at, Ideal.ofBits_def, Ideal.ofBits_zero_f32]
  rw [sum3]
  rfl

/-- The reference's result is the loss of the specification at the positions, the neighbour sums and the divisor. -/
theorem ref_is_loss (x0 : (⟨S64x100000x3, .f32⟩ : BufTy).Contents (Elt Ideal)) (x1 : (⟨S200000x3, .i32⟩ : BufTy).Contents (Elt Ideal)) :
    Cert.ReferenceIdeal.Read.val_main_v42 (F := Ideal) x0 x1
      = Cert.MeshLoss.loss x0 (Cert.ReferenceIdeal.Read.val_main_v33 (F := Ideal) x0 x1)
          (Cert.ReferenceIdeal.Read.val_main_v18 (F := Ideal) x1) := by
  funext i
  rw [val_main_v42_apply, val_main_v41_apply, val_main_cst_9_apply, val_main_cst_10_apply, sum_idx2]
  simp only [dist_at, Ideal.ofBits_def, Ideal.ofBits_zero_f32, zero_add]
  unfold loss total
  rfl

end Cert.ReferenceIdeal.RefValue

end
-- ==== Proof.lean ====
/-
  Two programs compute, for a triangle mesh of 100000 vertices in 64 batches, the mean distance from a vertex to the mean
  of its neighbours:

      loss = ( ∑ b, ∑ v, √( ∑ c, (X b v c - N b v c / D v)² ) ) / 6400000,

  `X` the positions, `N` the per-vertex sums of the neighbours' positions, `D` the per-vertex neighbour counts (at
  least one). Both build `N` and `D` from the faces by the same host operations (edge lists, a scatter of ones, a gather
  and a scatter-add). The reference then evaluates the formula as written. The kernel pads the vertex axis to 49 tiles of
  2048 (positions and sums by 0, counts by 1), lays the vertex axis last, and runs a grid of 49 points over the tiles,
  adding each tile's partial sum into a one-element scratch buffer that is set to zero at the first point and copied out at
  the last; the host divides the copy by 6400000.

  On the extended reals the two agree: a padded vertex contributes √0 = 0, and the rest is a regrouping of one finite sum
  in a commutative monoid (no finiteness of the inputs is used). The three frames: each program runs to the end, faults
  nowhere and leaves its two arguments unchanged — for the kernel, at the word level and at the ideal instance alike, from
  the run of its region point by point; for the reference from the run of its host operations. The idealization rewrote
  nothing, so there is nothing to preserve.
-/
import proofs.«138574_j73796128080164_1_alg».proof.Defs
import proofs.«138574_j73796128080164_1_alg».proof.Proof.Gen.Kernel
import proofs.«138574_j73796128080164_1_alg».proof.Proof.Gen.Kernel.Skeleton
import proofs.«138574_j73796128080164_1_alg».proof.Proof.Gen.Kernel.Launch
import proofs.«138574_j73796128080164_1_alg».proof.Proof.Gen.Kernel.Points
import proofs.«138574_j73796128080164_1_alg».proof.Proof.Gen.KernelIdeal
import proofs.«138574_j73796128080164_1_alg».proof.Proof.Gen.KernelIdeal.Skeleton
import proofs.«138574_j73796128080164_1_alg».proof.Proof.Gen.KernelIdeal.Launch
import proofs.«138574_j73796128080164_1_alg».proof.Proof.Gen.KernelIdeal.Points
import proofs.«138574_j73796128080164_1_alg».proof.Proof.Gen.ReferenceIdeal
import proofs.«138574_j73796128080164_1_alg».proof.Proof.Gen.ReferenceIdeal.Run
import proofs.«138574_j73796128080164_1_alg».proof.Proof.Gen.ReferenceIdeal.Read
import proofs.«138574_j73796128080164_1_alg».proof.Proof.Gen.Pre_finite_inputs
import proofs.«138574_j73796128080164_1_alg».proof.Proof.Kernel.Run
import proofs.«138574_j73796128080164_1_alg».proof.Proof.KernelIdeal.Loss
import proofs.«138574_j73796128080164_1_alg».proof.Proof.RefValue
import Idealize.ShloMosaic.Adequacy
import Idealize.ShloMosaic.Init

noncomputable section

namespace Cert.Proof

open Idealize.ShloMosaic Idealize.SL.Sem

/-- The word-level kernel runs, faults nowhere and keeps its arguments. -/
theorem frame_kernel : Cert.frame_Kernel := fun m ρ _ => Cert.Kernel.Region.frame (F := Bits) m ρ

/-- So does the kernel read at the ideal instance. -/
theorem frame_kernel_ideal : Cert.frame_KernelIdeal := fun m ρ _ => Cert.KernelIdeal.Region.frame (F := Ideal) m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the positions and the faces both programs end at the loss of those positions, the
    neighbours' sums and the neighbour counts: the kernel by its run read point by point, the reference by its stages. -/
theorem algebraic : Cert.algebraic_KernelIdeal_ReferenceIdeal := by
  intro m ρ m' ρ' _ hagree
  refine ⟨fun c => Cert.MeshLoss.loss (Cert.KernelIdeal.Region.positions m c) (Cert.KernelIdeal.Region.nbrSums m c)
    (Cert.KernelIdeal.Region.divisor m c), Cert.KernelIdeal.Region.run_loss m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.ref_is_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
